-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x1024x3 : Shape := ⟨3, ![1, 1024, 3]⟩
abbrev S1x2048x3 : Shape := ⟨3, ![1, 2048, 3]⟩
abbrev S1x1x1024 : Shape := ⟨3, ![1, 1, 1024]⟩
abbrev S1x1x8192 : Shape := ⟨3, ![1, 1, 8192]⟩
abbrev S1x1024 : Shape := ⟨2, ![1, 1024]⟩
abbrev S1x8192 : Shape := ⟨2, ![1, 8192]⟩
abbrev S1024x3 : Shape := ⟨2, ![1024, 3]⟩
abbrev S2048x3 : Shape := ⟨2, ![2048, 3]⟩
abbrev S3x2048 : Shape := ⟨2, ![3, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩
abbrev S1024x2048 : Shape := ⟨2, ![1024, 2048]⟩
abbrev S4x8192 : Shape := ⟨2, ![4, 8192]⟩
abbrev S_ : Shape := ⟨0, ![]⟩
abbrev S4 : Shape := ⟨1, ![4]⟩

abbrev nBuf : Space → Nat
  | .hbm => 24
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x2048x3, .f32⟩
  | .local _ .vmem, ⟨3, _⟩ => ⟨S1x2048x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x8192, .f32⟩
  | .local _ .vmem, ⟨7, _⟩ => ⟨S1x1x8192, .f32⟩
  | .local _ .vmem, ⟨8, _⟩ => ⟨S1x1024, .f32⟩
  | .local _ .vmem, ⟨9, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c2048_i32 : BitVec 32 := 2048#32
  let v36 : BitVec 32 := Scalar.muli arg2 c2048_i32
  v36
def k0_off1 (i : grid0.Coords) : Fin 2 → Nat :=
  let c0_18 : Index := 0#32
  let arg2 : BitVec 32 := BitVec.ofNat 32 (i 2).val
  let c2048_i32 : BitVec 32 := 2048#32
  let v36 : BitVec 32 := Scalar.muli arg2 c2048_i32
  let v37 : BitVec 32 := v36
  let v38 : Index := Scalar.indexCast v37
  ![0, v38.toNat]
def k0_cond3 (i : grid0.Coords) : BitVec 1 :=
  let arg2 : BitVec 32 := BitVec.ofNat 32 (i 2).val
  let c3_i32 : BitVec 32 := 3#32
  let v45 : BitVec 1 := Scalar.cmpi .eq arg2 c3_i32
  let v46 : BitVec 32 := Scalar.extui v45
  let c0_i32_20 : BitVec 32 := 0#32
  let v47 : BitVec 1 := Scalar.cmpi .ne v46 c0_i32_20
  v47

def k0_cond4 (i : grid0.Coords) : BitVec 1 :=
  let arg1 : BitVec 32 := BitVec.ofNat 32 (i 1).val
  let c7_i32 : BitVec 32 := 7#32
  let v48 : BitVec 1 := Scalar.cmpi .eq arg1 c7_i32
  let arg2 : BitVec 32 := BitVec.ofNat 32 (i 2).val
  let c3_i32_21 : BitVec 32 := 3#32
  let v49 : BitVec 1 := Scalar.cmpi .eq arg2 c3_i32_21
  let v50 : BitVec 1 := Scalar.andi v48 v49
  let v51 : BitVec 32 := Scalar.extui v50
  let c0_i32_22 : BitVec 32 := 0#32
  let v52 : BitVec 1 := Scalar.cmpi .ne v51 c0_i32_22
  v52

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  transposes_S2048x3_p1_0_S3x2048 : S2048x3.Transposes [1, 0] S3x2048
  reduces_S1024x3_S1024 : S1024x3.Reduces [1] S1024
  shapeCasts_S1024_S1024x1 : S1024.ShapeCasts S1024x1
  reduces_S3x2048_S2048 : S3x2048.Reduces [0] S2048
  shapeCasts_S2048_S1x2048 : S2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  reduces_S1024x2048_S2048 : S1024x2048.Reduces [0] S2048
  transposes_S1024x1_p1_0_S1x1024 : S1024x1.Transposes [1, 0] S1x1024
  h_S1x2048 : 0 < S1x2048.numel
  shapeCasts_S1x2048_S1x2048 : S1x2048.ShapeCasts S1x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x1x8192_S4x8192 : S4x1x8192.ShapeCasts S4x8192
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  dot_S1024x3_S3x2048_S1024x2048_1_0_0_1_n_n_wf : DotDims.WF S1024x3 S3x2048 S1024x2048 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S1x2048.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S4x8192x3.size a
  hwx0_1 : ∀ i : grid0.Coords, EltTy.bits .f32 = 32 ∨ (Rect.block (s := S4x8192x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x8192.size a
  hwx0_2 : ∀ i : grid0.Coords, EltTy.bits .f32 = 32 ∨ (Rect.block (s := S4x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1024x3_S3x2048_S1024x2048_1_0_0_1_n_n : DotDims S1024x3 S3x2048 S1024x2048 where
  lhsContracting := [1]
  rhsContracting := [0]
  lhsNonContracting := [0]
  rhsNonContracting := [1]
  lhsBatch := []
  rhsBatch := []
  wf := dot_S1024x3_S3x2048_S1024x2048_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Pieces.lean ====
/-
  What one run of the body leaves in the two running minima and in the two result blocks, as functions of what it
  loaded.

  The body keeps two running minima between grid points. The first, one entry per row of the current block of
  predicted points, is replaced whole: by the minimum of its old contents (or of +∞, at the first step of a sweep
  over the target blocks) with the tile's row minima. The second, one entry per target point of the whole batch,
  is updated only on the columns of the current target block, where it becomes the minimum of its old contents (or of
  +∞, at the first step of a batch) with the tile's column minima; every other column keeps what it held. At the last
  step of a sweep the first result block receives the root of the clamp of the first running minimum, and at the last
  step of a batch the second result block receives the root of the clamp of the second.
-/
import proofs.«138287_j16003048145306_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

noncomputable section

namespace Cert.Chamfer.Pieces

open Idealize.ShloMosaic Idealize.ShloMosaic.TcCoe Idealize.SL.Sem Idealize.ShloMosaic.Tactic Idealize.ShloMosaic.ValueIdx
open Cert.KernelIdeal Cert.KernelIdeal.Gen

variable {F : FTy → Type} [FloatOps F]
variable (c : Dev nD) (i : grid0.Coords)
  (arg3 : Memref sig .tc .vmem S1x1024x3 .f32) (harg3 : arg3.IsWhole)
  (arg4 : Memref sig .tc .vmem S1x2048x3 .f32) (harg4 : arg4.IsWhole)
  (arg5 : Memref sig .tc .vmem S1x1x1024 .f32) (harg5 : arg5.IsWhole)
  (arg6 : Memref sig .tc .vmem S1x1x8192 .f32) (harg6 : arg6.IsWhole)
  (arg7 : Memref sig .tc .vmem S1x1024 .f32) (harg7 : arg7.IsWhole)
  (arg8 : Memref sig .tc .vmem S1x8192 .f32) (harg8 : arg8.IsWhole)
  (x0 : Vec F S1x1024x3 .f32) (x1 : Vec F S1x2048x3 .f32) (xs0 : Vec F S1x1024 .f32) (xs1 : Vec F S1x8192 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- The columns of the current target block, as the body loads them from the second running minimum. -/
abbrev colsOf (i : grid0.Coords) (xs1 : Vec F S1x8192 .f32) : Vec F S1x2048 .f32 :=
  View.ld xs1 (Rect.unit (k0_off1 i) S1x2048.size (k0_off1_inb i))

/-- One store through the whole buffer leaves its payload, whatever was there. -/
theorem read_whole_store {S : Shape} (v : View sig .tc .vmem S .f32) (f : v.ty.Contents (Elt F)) {off : Fin S.rank → Nat}
    (h : off = fun _ => 0) (inb : ∀ a, off a + S.size a ≤ S.size a) (w : S.Idx → Elt F .f32) :
    v.read (Elt F) (v.writes (Elt F) f [(⟨Rect.unit off S.size inb, w⟩ : View.Piece (Elt F) S .f32)]) = w := by
  rw [View.read_writes_eq_canon v f _ (fun y => ⟨_, List.mem_singleton_self _, View.mem_set_unit_zero h inb y⟩),
    View.canon_unit_zero h]

/-! ## The first step of a batch: both running minima start from +∞ -/

theorem rowAcc_A (hc0 : cond0_0 i) (hc1 : cond0_1 i) (hc2 : ¬cond0_2 i) (hc3 : ¬cond0_3 i) :
    sout0_A_0 c i arg3 harg3 arg4 harg4 arg5 harg5 arg6 harg6 arg7 harg7 arg8 harg8 hc0 hc1 hc2 hc3 x0 x1
      = k0_pay1 (k0_pay9 x0 x1 (k0_pay6 (F := F))) := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_run_names
  rw [View.canon_cons_unit_zero (S := S1x1024) hz2, View.readCov_unit_zero (S := S1x1024) _ hz2]
  simp only [View.readAt_eq_ld, harg3.read_unread, harg4.read_unread, harg7.read_unread, harg8.read_unread,
    View.ld_unit_zero (S := S1x1024x3) hz3, View.ld_unit_zero (S := S1x2048x3) hz3, View.ld_unit_zero (S := S1x1024) hz2, View.ld_unit_zero (S := S1x8192) hz2]

theorem colAcc_A_in (hc0 : cond0_0 i) (hc1 : cond0_1 i) (hc2 : ¬cond0_2 i) (hc3 : ¬cond0_3 i)
    (j : Fin 8192) (q : Fin 2048) (hq : j.val = 2048 * (i 2).val + q.val) :
    sout0_A_1 c i arg3 harg3 arg4 harg4 arg5 harg5 arg6 harg6 arg7 harg7 arg8 harg8 hc0 hc1 hc2 hc3 x0 x1 (ix2 0 j)
      = k0_pay2 (k0_pay8 x0 x1) (colsOf i (k0_pay5 (F := F))) (ix2 0 q) := by
  unfold sout0_A_1 kernelRun0_A
  dsimp only
  sl_unfold_run_names
  refine (View.read_writes_cons_unit_of_mem VS0_1 VS0_1.junk (k0_off1_inb i) _ _ (ix2 0 j) (ix2 0 q) (k0_off1_eq i) ?_).trans ?_
  · intro a
    match a with
    | ⟨0, _⟩ => rfl
    | ⟨1, _⟩ => exact hq
  · simp only [View.readAt_eq_ld]
    rw [read_whole_store arg8.view _ hz2]
    simp only [View.readAt_eq_ld, harg3.read_unread, harg4.read_unread, harg7.read_unread, harg8.read_unread,
      View.ld_unit_zero (S := S1x1024x3) hz3, View.ld_unit_zero (S := S1x2048x3) hz3, View.ld_unit_zero (S := S1x1024) hz2, View.ld_unit_zero (S := S1x8192) hz2]

theorem colAcc_A_out (hc0 : cond0_0 i) (hc1 : cond0_1 i) (hc2 : ¬cond0_2 i) (hc3 : ¬cond0_3 i)
    (j : Fin 8192) (hj : j.val < 2048 * (i 2).val ∨ 2048 * (i 2).val + 2048 ≤ j.val) :
    sout0_A_1 c i arg3 harg3 arg4 harg4 arg5 harg5 arg6 harg6 arg7 harg7 arg8 harg8 hc0 hc1 hc2 hc3 x0 x1 (ix2 0 j)
      = k0_pay5 (F := F) (ix2 0 j) := by
  unfold sout0_A_1 kernelRun0_A
  dsimp only
  sl_unfold_run_names
  refine (View.read_writes_cons_unit_of_not_mem VS0_1 VS0_1.junk (k0_off1_inb i) _ _ (ix2 0 j) (k0_off1_eq i) 1 hj).trans ?_
  exact congrFun (read_whole_store VS0_1 _ hz2 _ _) _

/-! ## A step in the middle of a sweep -/

theorem rowAcc_B (hc0 : ¬cond0_0 i) (hc1 : ¬cond0_1 i) (hc2 : ¬cond0_2 i) (hc3 : ¬cond0_3 i) :
    sout0_B_0 c i arg3 harg3 arg4 harg4 arg5 harg5 arg6 harg6 arg7 harg7 arg8 harg8 hc0 hc1 hc2 hc3 x0 x1 xs0 xs1
      = k0_pay1 (k0_pay9 x0 x1 xs0) := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_run_names
  rw [View.canon_unit_zero hz2]
  simp only [View.readAt_eq_ld, harg3.read_unread, harg4.read_unread, harg7.read_unread, harg8.read_unread,
    View.ld_unit_zero (S := S1x1024x3) hz3, View.ld_unit_zero (S := S1x2048x3) hz3, View.ld_unit_zero (S := S1x1024) hz2, View.ld_unit_zero (S := S1x8192) hz2]

theorem colAcc_B_in (hc0 : ¬cond0_0 i) (hc1 : ¬cond0_1 i) (hc2 : ¬cond0_2 i) (hc3 : ¬cond0_3 i)
    (j : Fin 8192) (q : Fin 2048) (hq : j.val = 2048 * (i 2).val + q.val) :
    sout0_B_1 c i arg3 harg3 arg4 harg4 arg5 harg5 arg6 harg6 arg7 harg7 arg8 harg8 hc0 hc1 hc2 hc3 x0 x1 xs0 xs1 (ix2 0 j)
      = k0_pay2 (k0_pay8 x0 x1) (colsOf i xs1) (ix2 0 q) := by
  unfold sout0_B_1 kernelRun0_B
  dsimp only
  sl_unfold_run_names
  refine (View.read_writes_cons_unit_of_mem arg8.view (harg8.unread xs1) (k0_off1_inb i) _ [] (ix2 0 j) (ix2 0 q) (k0_off1_eq i) ?_).trans ?_
  · intro a
    match a with
    | ⟨0, _⟩ => rfl
    | ⟨1, _⟩ => exact hq
  · simp only [View.readAt_eq_ld, harg3.read_unread, harg4.read_unread, harg7.read_unread, harg8.read_unread,
      View.ld_unit_zero (S := S1x1024x3) hz3, View.ld_unit_zero (S := S1x2048x3) hz3, View.ld_unit_zero (S := S1x1024) hz2, View.ld_unit_zero (S := S1x8192) hz2]

theorem colAcc_B_out (hc0 : ¬cond0_0 i) (hc1 : ¬cond0_1 i) (hc2 : ¬cond0_2 i) (hc3 : ¬cond0_3 i)
    (j : Fin 8192) (hj : j.val < 2048 * (i 2).val ∨ 2048 * (i 2).val + 2048 ≤ j.val) :
    sout0_B_1 c i arg3 harg3 arg4 harg4 arg5 harg5 arg6 harg6 arg7 harg7 arg8 harg8 hc0 hc1 hc2 hc3 x0 x1 xs0 xs1 (ix2 0 j)
      = xs1 (ix2 0 j) := by
  unfold sout0_B_1 kernelRun0_B
  dsimp only
  refine (View.read_writes_cons_unit_of_not_mem arg8.view (harg8.unread xs1) (k0_off1_inb i) _ [] (ix2 0 j) (k0_off1_eq i) 1 hj).trans ?_
  rw [View.writes_nil, harg8.read_unread]

/-! ## The last step of a sweep: the first result block is written -/

theorem rowAcc_C (hc0 : ¬cond0_0 i) (hc1 : ¬cond0_1 i) (hc2 : cond0_2 i) (hc3 : ¬cond0_3 i) :
    sout0_C_0 c i arg3 harg3 arg4 harg4 arg5 harg5 arg6 harg6 arg7 harg7 arg8 harg8 hc0 hc1 hc2 hc3 x0 x1 xs0 xs1
      = k0_pay1 (k0_pay9 x0 x1 xs0) := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_run_names
  rw [View.canon_unit_zero hz2]
  simp only [View.readAt_eq_ld, harg3.read_unread, harg4.read_unread, harg7.read_unread, harg8.read_unread,
    View.ld_unit_zero (S := S1x1024x3) hz3, View.ld_unit_zero (S := S1x2048x3) hz3, View.ld_unit_zero (S := S1x1024) hz2, View.ld_unit_zero (S := S1x8192) hz2]

theorem colAcc_C_in (hc0 : ¬cond0_0 i) (hc1 : ¬cond0_1 i) (hc2 : cond0_2 i) (hc3 : ¬cond0_3 i)
    (j : Fin 8192) (q : Fin 2048) (hq : j.val = 2048 * (i 2).val + q.val) :
    sout0_C_1 c i arg3 harg3 arg4 harg4 arg5 harg5 arg6 harg6 arg7 harg7 arg8 harg8 hc0 hc1 hc2 hc3 x0 x1 xs0 xs1 (ix2 0 j)
      = k0_pay2 (k0_pay8 x0 x1) (colsOf i xs1) (ix2 0 q) := by
  unfold sout0_C_1 kernelRun0_C
  dsimp only
  sl_unfold_run_names
  refine (View.read_writes_cons_unit_of_mem arg8.view (harg8.unread xs1) (k0_off1_inb i) _ [] (ix2 0 j) (ix2 0 q) (k0_off1_eq i) ?_).trans ?_
  · intro a
    match a with
    | ⟨0, _⟩ => rfl
    | ⟨1, _⟩ => exact hq
  · simp only [View.readAt_eq_ld, harg3.read_unread, harg4.read_unread, harg7.read_unread, harg8.read_unread,
      View.ld_unit_zero (S := S1x1024x3) hz3, View.ld_unit_zero (S := S1x2048x3) hz3, View.ld_unit_zero (S := S1x1024) hz2, View.ld_unit_zero (S := S1x8192) hz2]

theorem colAcc_C_out (hc0 : ¬cond0_0 i) (hc1 : ¬cond0_1 i) (hc2 : cond0_2 i) (hc3 : ¬cond0_3 i)
    (j : Fin 8192) (hj : j.val < 2048 * (i 2).val ∨ 2048 * (i 2).val + 2048 ≤ j.val) :
    sout0_C_1 c i arg3 harg3 arg4 harg4 arg5 harg5 arg6 harg6 arg7 harg7 arg8 harg8 hc0 hc1 hc2 hc3 x0 x1 xs0 xs1 (ix2 0 j)
      = xs1 (ix2 0 j) := by
  unfold sout0_C_1 kernelRun0_C
  dsimp only
  refine (View.read_writes_cons_unit_of_not_mem arg8.view (harg8.unread xs1) (k0_off1_inb i) _ [] (ix2 0 j) (k0_off1_eq i) 1 hj).trans ?_
  rw [View.writes_nil, harg8.read_unread]

theorem rootRows_C (hc0 : ¬cond0_0 i) (hc1 : ¬cond0_1 i) (hc2 : cond0_2 i) (hc3 : ¬cond0_3 i) :
    out0_C_2 c i arg3 harg3 arg4 harg4 arg5 harg5 arg6 harg6 arg7 harg7 arg8 harg8 hc0 hc1 hc2 hc3 x0 x1 xs0 xs1
      = k0_pay3 (k0_pay1 (k0_pay9 x0 x1 xs0)) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_run_names
  rw [View.canon_unit_zero hz3, View.readCov_unit_zero (S := S1x1024) _ hz2]
  simp only [View.readAt_eq_ld, harg3.read_unread, harg4.read_unread, harg7.read_unread, harg8.read_unread,
    View.ld_unit_zero (S := S1x1024x3) hz3, View.ld_unit_zero (S := S1x2048x3) hz3, View.ld_unit_zero (S := S1x1024) hz2, View.ld_unit_zero (S := S1x8192) hz2]

/-! ## The first step of a later sweep: the row minima start from +∞, the column minima carry on -/

theorem rowAcc_D (hc0 : ¬cond0_0 i) (hc1 : cond0_1 i) (hc2 : ¬cond0_2 i) (hc3 : ¬cond0_3 i) :
    sout0_D_0 c i arg3 harg3 arg4 harg4 arg5 harg5 arg6 harg6 arg7 harg7 arg8 harg8 hc0 hc1 hc2 hc3 x0 x1 xs1
      = k0_pay1 (k0_pay9 x0 x1 (k0_pay6 (F := F))) := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_run_names
  rw [View.canon_cons_unit_zero (S := S1x1024) hz2, View.readCov_unit_zero (S := S1x1024) _ hz2]
  simp only [View.readAt_eq_ld, harg3.read_unread, harg4.read_unread, harg7.read_unread, harg8.read_unread,
    View.ld_unit_zero (S := S1x1024x3) hz3, View.ld_unit_zero (S := S1x2048x3) hz3, View.ld_unit_zero (S := S1x1024) hz2, View.ld_unit_zero (S := S1x8192) hz2]

theorem colAcc_D_in (hc0 : ¬cond0_0 i) (hc1 : cond0_1 i) (hc2 : ¬cond0_2 i) (hc3 : ¬cond0_3 i)
    (j : Fin 8192) (q : Fin 2048) (hq : j.val = 2048 * (i 2).val + q.val) :
    sout0_D_1 c i arg3 harg3 arg4 harg4 arg5 harg5 arg6 harg6 arg7 harg7 arg8 harg8 hc0 hc1 hc2 hc3 x0 x1 xs1 (ix2 0 j)
      = k0_pay2 (k0_pay8 x0 x1) (colsOf i xs1) (ix2 0 q) := by
  unfold sout0_D_1 kernelRun0_D
  dsimp only
  sl_unfold_run_names
  refine (View.read_writes_cons_unit_of_mem arg8.view (harg8.unread xs1) (k0_off1_inb i) _ [] (ix2 0 j) (ix2 0 q) (k0_off1_eq i) ?_).trans ?_
  · intro a
    match a with
    | ⟨0, _⟩ => rfl
    | ⟨1, _⟩ => exact hq
  · simp only [View.readAt_eq_ld, harg3.read_unread, harg4.read_unread, harg7.read_unread, harg8.read_unread,
      View.ld_unit_zero (S := S1x1024x3) hz3, View.ld_unit_zero (S := S1x2048x3) hz3, View.ld_unit_zero (S := S1x1024) hz2, View.ld_unit_zero (S := S1x8192) hz2]

theorem colAcc_D_out (hc0 : ¬cond0_0 i) (hc1 : cond0_1 i) (hc2 : ¬cond0_2 i) (hc3 : ¬cond0_3 i)
    (j : Fin 8192) (hj : j.val < 2048 * (i 2).val ∨ 2048 * (i 2).val + 2048 ≤ j.val) :
    sout0_D_1 c i arg3 harg3 arg4 harg4 arg5 harg5 arg6 harg6 arg7 harg7 arg8 harg8 hc0 hc1 hc2 hc3 x0 x1 xs1 (ix2 0 j)
      = xs1 (ix2 0 j) := by
  unfold sout0_D_1 kernelRun0_D
  dsimp only
  refine (View.read_writes_cons_unit_of_not_mem arg8.view (harg8.unread xs1) (k0_off1_inb i) _ [] (ix2 0 j) (k0_off1_eq i) 1 hj).trans ?_
  rw [View.writes_nil, harg8.read_unread]

/-! ## The last step of a batch: both result blocks are written -/

theorem rowAcc_E (hc0 : ¬cond0_0 i) (hc1 : ¬cond0_1 i) (hc2 : cond0_2 i) (hc3 : cond0_3 i) :
    sout0_E_0 c i arg3 harg3 arg4 harg4 arg5 harg5 arg6 harg6 arg7 harg7 arg8 harg8 hc0 hc1 hc2 hc3 x0 x1 xs0 xs1
      = k0_pay1 (k0_pay9 x0 x1 xs0) := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_run_names
  rw [View.canon_unit_zero hz2]
  simp only [View.readAt_eq_ld, harg3.read_unread, harg4.read_unread, harg7.read_unread, harg8.read_unread,
    View.ld_unit_zero (S := S1x1024x3) hz3, View.ld_unit_zero (S := S1x2048x3) hz3, View.ld_unit_zero (S := S1x1024) hz2, View.ld_unit_zero (S := S1x8192) hz2]

theorem colAcc_E_in (hc0 : ¬cond0_0 i) (hc1 : ¬cond0_1 i) (hc2 : cond0_2 i) (hc3 : cond0_3 i)
    (j : Fin 8192) (q : Fin 2048) (hq : j.val = 2048 * (i 2).val + q.val) :
    sout0_E_1 c i arg3 harg3 arg4 harg4 arg5 harg5 arg6 harg6 arg7 harg7 arg8 harg8 hc0 hc1 hc2 hc3 x0 x1 xs0 xs1 (ix2 0 j)
      = k0_pay2 (k0_pay8 x0 x1) (colsOf i xs1) (ix2 0 q) := by
  unfold sout0_E_1 kernelRun0_E
  dsimp only
  sl_unfold_run_names
  refine (View.read_writes_cons_unit_of_mem arg8.view (harg8.unread xs1) (k0_off1_inb i) _ [] (ix2 0 j) (ix2 0 q) (k0_off1_eq i) ?_).trans ?_
  · intro a
    match a with
    | ⟨0, _⟩ => rfl
    | ⟨1, _⟩ => exact hq
  · simp only [View.readAt_eq_ld, harg3.read_unread, harg4.read_unread, harg7.read_unread, harg8.read_unread,
      View.ld_unit_zero (S := S1x1024x3) hz3, View.ld_unit_zero (S := S1x2048x3) hz3, View.ld_unit_zero (S := S1x1024) hz2, View.ld_unit_zero (S := S1x8192) hz2]

theorem colAcc_E_out (hc0 : ¬cond0_0 i) (hc1 : ¬cond0_1 i) (hc2 : cond0_2 i) (hc3 : cond0_3 i)
    (j : Fin 8192) (hj : j.val < 2048 * (i 2).val ∨ 2048 * (i 2).val + 2048 ≤ j.val) :
    sout0_E_1 c i arg3 harg3 arg4 harg4 arg5 harg5 arg6 harg6 arg7 harg7 arg8 harg8 hc0 hc1 hc2 hc3 x0 x1 xs0 xs1 (ix2 0 j)
      = xs1 (ix2 0 j) := by
  unfold sout0_E_1 kernelRun0_E
  dsimp only
  refine (View.read_writes_cons_unit_of_not_mem arg8.view (harg8.unread xs1) (k0_off1_inb i) _ [] (ix2 0 j) (k0_off1_eq i) 1 hj).trans ?_
  rw [View.writes_nil, harg8.read_unread]

theorem rootRows_E (hc0 : ¬cond0_0 i) (hc1 : ¬cond0_1 i) (hc2 : cond0_2 i) (hc3 : cond0_3 i) :
    out0_E_2 c i arg3 harg3 arg4 harg4 arg5 harg5 arg6 harg6 arg7 harg7 arg8 harg8 hc0 hc1 hc2 hc3 x0 x1 xs0 xs1
      = k0_pay3 (k0_pay1 (k0_pay9 x0 x1 xs0)) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_run_names
  rw [View.canon_unit_zero hz3, View.readCov_unit_zero (S := S1x1024) _ hz2]
  simp only [View.readAt_eq_ld, harg3.read_unread, harg4.read_unread, harg7.read_unread, harg8.read_unread,
    View.ld_unit_zero (S := S1x1024x3) hz3, View.ld_unit_zero (S := S1x2048x3) hz3, View.ld_unit_zero (S := S1x1024) hz2, View.ld_unit_zero (S := S1x8192) hz2]

/-- The second result block is the root of the clamp of what the step leaves in the second running minimum. -/
theorem rootCols_E (hc0 : ¬cond0_0 i) (hc1 : ¬cond0_1 i) (hc2 : cond0_2 i) (hc3 : cond0_3 i) :
    out0_E_3 c i arg3 harg3 arg4 harg4 arg5 harg5 arg6 harg6 arg7 harg7 arg8 harg8 hc0 hc1 hc2 hc3 x0 x1 xs0 xs1
      = k0_pay4 (sout0_E_1 c i arg3 harg3 arg4 harg4 arg5 harg5 arg6 harg6 arg7 harg7 arg8 harg8 hc0 hc1 hc2 hc3 x0 x1 xs0 xs1) := by
  unfold out0_E_3
  rw [View.read_writes_eq_canon _ _ _ (cover0_E_3 c i arg3 harg3 arg4 harg4 arg5 harg5 arg6 harg6 arg7 harg7 arg8 harg8 hc0 hc1 hc2 hc3 x0 x1 xs0 xs1)]
  unfold sout0_E_1 kernelRun0_E
  dsimp only
  sl_unfold_run_names
  rw [View.canon_unit_zero hz3, View.readAt_eq_ld, View.ld_unit_zero (S := S1x8192) hz2]

/-- Column `q` of the current target block, as loaded from the second running minimum, is that minimum's entry for
    target point `2048 · (last grid coordinate) + q`. -/
theorem colsOf_apply (j : Fin 8192) (q : Fin 2048) (hq : j.val = 2048 * (i 2).val + q.val) :
    colsOf i xs1 (ix2 0 q) = xs1 (ix2 0 j) := by
  show xs1 ((Rect.unit (s := S1x8192) (k0_off1 i) S1x2048.size (k0_off1_inb i)).toLoadRect.idx (ix2 0 q)) = _
  refine congrArg xs1 (funext fun a => Fin.ext ?_)
  rw [LoadRect.idx_apply]
  match a with
  | ⟨0, _⟩ =>
    show k0_off1 i (0 : Fin 2) + 1 * 0 = 0
    rw [k0_off1_eq]; rfl
  | ⟨1, _⟩ =>
    show k0_off1 i (1 : Fin 2) + 1 * q.val = j.val
    rw [k0_off1_eq, hq]
    show 2048 * (i 2).val + 1 * q.val = 2048 * (i 2).val + q.val
    omega

end Cert.Chamfer.Pieces

end
-- ==== Proof.Blocks.lean ====
/-
  Where the windows sit at each grid point.

  The grid has 4 × 8 × 4 points, visited in row-major order: point `t` is batch `t / 32`, block `t / 4 % 8` of
  1024 predicted points and block `t % 4` of 2048 target points. The first input window shows that batch's block of
  predicted points, the second its block of target points; so row `r` of the first block is predicted point
  `1024 · (t / 4 % 8) + r` and row `q` of the second is target point `2048 · (t % 4) + q`. The first result
  window is that batch's block `t / 4 % 8` of 1024 entries, the second that batch's whole row of 8192 entries.
-/
import proofs.«138287_j16003048145306_2_alg».proof.Proof.Gen.KernelIdeal.Frame
import Idealize.ShloMosaic.Lib.Pipeline.Value
import Idealize.ShloMosaic.Lib.ValueIdx

noncomputable section

namespace Cert.Chamfer.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The printed index maps and the point's last grid coordinate, decided over the grid. -/
theorem idx_facts : ∀ t : Fin cfg0.N,
    win0_0.index t (0 : Fin 3) = t.val / 32 ∧ win0_0.index t (1 : Fin 3) = t.val / 4 % 8 ∧ win0_0.index t (2 : Fin 3) = 0
    ∧ win0_1.index t (0 : Fin 3) = t.val / 32 ∧ win0_1.index t (1 : Fin 3) = t.val % 4 ∧ win0_1.index t (2 : Fin 3) = 0
    ∧ win0_2.index t (0 : Fin 3) = t.val / 32 ∧ win0_2.index t (1 : Fin 3) = 0 ∧ win0_2.index t (2 : Fin 3) = t.val / 4 % 8
    ∧ win0_3.index t (0 : Fin 3) = t.val / 32 ∧ win0_3.index t (1 : Fin 3) = 0 ∧ win0_3.index t (2 : Fin 3) = 0
    ∧ (grid0.coords t 2).val = t.val % 4 :=
  (by decide +kernel : ∀ t : Fin grid0.N, _)

/-- The last grid coordinate of point `t` is `t % 4`. -/
theorem coord2 (t : Fin cfg0.N) : (grid0.coords t 2).val = t.val % 4 := (idx_facts t).2.2.2.2.2.2.2.2.2.2.2.2

/-- Row `r`, coordinate `k` of the first input block at point `t` is predicted point `1024 · (t / 4 % 8) + r`
    of batch `t / 32`. -/
theorem predBlock_apply (c : Dev nD) (t : Fin cfg0.N) (r : Fin 1024) (k : Fin 3) (b : Fin 4) (row : Fin 8192)
    (hb : b.val = t.val / 32) (hrow : row.val = 1024 * (t.val / 4 % 8) + r.val) :
    iblk m c 0 t (ix3 0 r k) = V m c main_arg0 (ix3 b row k) := by
  obtain ⟨e0, e1, e2, -⟩ := idx_facts t
  unfold iblk
  show V m c main_arg0 (((cfg0.win 0).blk t).view.emb (ix3 0 r k)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 1024 + 1 * r.val = row.val; omega
  | ⟨2, _⟩ => show win0_0.index t (2 : Fin 3) * 3 + 1 * k.val = k.val; omega

/-- Row `q`, coordinate `k` of the second input block at point `t` is target point `2048 · (t % 4) + q` of batch
    `t / 32`. -/
theorem targBlock_apply (c : Dev nD) (t : Fin cfg0.N) (q : Fin 2048) (k : Fin 3) (b : Fin 4) (col : Fin 8192)
    (hb : b.val = t.val / 32) (hcol : col.val = 2048 * (t.val % 4) + q.val) :
    iblk m c 1 t (ix3 0 q k) = V m c main_arg1 (ix3 b col k) := by
  obtain ⟨-, -, -, e0, e1, e2, -⟩ := idx_facts t
  unfold iblk
  show V m c main_arg1 (((cfg0.win 1).blk t).view.emb (ix3 0 q k)) = _
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 2048 + 1 * q.val = col.val; omega
  | ⟨2, _⟩ => show win0_1.index t (2 : Fin 3) * 3 + 1 * k.val = k.val; omega

end Cert.Chamfer.Blocks

end
-- ==== Proof.ClampRoot.lean ====
/-
  The map x ↦ √(max x 0) on the extended reals.

  Below zero the extended square root is the bottom element, from zero on it is the real root, and at +∞
  it is +∞; so it is monotone. The maximum with zero is monotone too. Their composite therefore commutes
  with binary minima, and since it sends +∞ to +∞ it commutes with the minimum of any finite family
  taken from +∞: the root of the clamped least squared distance is the least root of the clamped
  squared distances.
-/
import Mathlib
import Idealize.ShloMosaic.PureOps.Ideal

namespace Cert.Chamfer

open Idealize.ShloMosaic

/-- The extended square root is monotone. -/
theorem sqrt_mono : Monotone Ideal.sqrt := by
  intro x y hxy
  induction x using EReal.rec with
  | bot => rw [Ideal.sqrt_bot]; exact bot_le
  | top =>
    have hy : y = ⊤ := top_le_iff.mp hxy
    rw [hy]
  | coe r =>
    induction y using EReal.rec with
    | bot => exact absurd hxy (by simp)
    | top => rw [Ideal.sqrt_top]; exact le_top
    | coe s =>
      have hrs : r ≤ s := EReal.coe_le_coe_iff.mp hxy
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- The root of the clamp: `x ↦ √(max x 0)`. -/
noncomputable def clampRoot (x : EReal) : EReal := Ideal.sqrt (max x 0)

theorem clampRoot_mono : Monotone clampRoot :=
  fun _ _ h => sqrt_mono (max_le_max h le_rfl)

/-- At +∞ the clamp is +∞ and so is its root. -/
theorem clampRoot_top : clampRoot ⊤ = ⊤ := by
  unfold clampRoot
  rw [max_eq_left le_top, Ideal.sqrt_top]

/-- The root of the clamp commutes with a binary minimum. -/
theorem clampRoot_min (a b : EReal) : clampRoot (min a b) = min (clampRoot a) (clampRoot b) :=
  clampRoot_mono.map_min

/-- The root of the clamp commutes with the minimum of a finite family taken from +∞. -/
theorem clampRoot_fold_min {ι : Type*} (s : Finset ι) (f : ι → EReal) :
    clampRoot (s.fold min ⊤ f) = s.fold min ⊤ (fun i => clampRoot (f i)) := by
  classical
  induction s using Finset.induction_on with
  | empty => simp only [Finset.fold_empty]; exact clampRoot_top
  | insert a s ha ih =>
    rw [Finset.fold_insert ha, Finset.fold_insert ha, clampRoot_min, ih]

end Cert.Chamfer
-- ==== Proof.Distances.lean ====
/-
  The quantities both programs compute, as functions of the two point clouds.

  For a batch `b`, a predicted point `i` and a target point `j`, the squared distance is taken by the
  polarisation identity |p|² + |q|² − 2 p·q, each of the three terms a sum over the three coordinates. The distance
  from a predicted point to the target cloud is the root of the clamp of the least squared distance over all targets,
  and symmetrically for a target point; least values are minima of finite families taken from +∞. The result is the
  mean over the batch of the half-sum of the two clouds' mean nearest distances, which both programs take by the
  same chain of sums and quotients: it is stated once, as a function of the two arrays of nearest distances.
-/
import Idealize.ShloMosaic.PureOps
import Idealize.ShloMosaic.PureOps.Ideal.Laws
import Idealize.ShloMosaic.Lib.ValueIdx
import proofs.«138287_j16003048145306_2_alg».proof.Proof.ClampRoot

noncomputable section

namespace Cert.Chamfer

open Idealize.ShloMosaic Idealize.ShloMosaic.ValueIdx
open scoped BigOperators

/-- A cloud per batch: 4 batches of 8192 points with 3 coordinates. -/
abbrev Cloud : Shape := ⟨3, ![4, 8192, 3]⟩
/-- One value per batch and point. -/
abbrev PerPoint : Shape := ⟨2, ![4, 8192]⟩
/-- One value per batch. -/
abbrev PerBatch : Shape := ⟨1, ![4]⟩
/-- A single value. -/
abbrev Single : Shape := ⟨0, ![]⟩

/-- The factor of the cross term, the number two as both programs spell it. -/
abbrev two : EReal := Ideal.ofBits .f32 0x40000000#32

/-- The squared distance between predicted point `i` and target point `j` of batch `b`:
    (|p|² + |q|²) − 2·(p·q). -/
def sqDist (P Q : Cloud.Idx → EReal) (b : Fin 4) (i j : Fin 8192) : EReal :=
  ((∑ k : Fin 3, P (ix3 b i k) * P (ix3 b i k)) + (∑ k : Fin 3, Q (ix3 b j k) * Q (ix3 b j k)))
    - two * ∑ k : Fin 3, P (ix3 b i k) * Q (ix3 b j k)

/-- The distance from predicted point `i` to the nearest target point. -/
def toTargets (P Q : Cloud.Idx → EReal) (b : Fin 4) (i : Fin 8192) : EReal :=
  clampRoot ((Finset.univ : Finset (Fin 8192)).fold min ⊤ fun j => sqDist P Q b i j)

/-- The distance from target point `j` to the nearest predicted point. -/
def toPredicted (P Q : Cloud.Idx → EReal) (b : Fin 4) (j : Fin 8192) : EReal :=
  clampRoot ((Finset.univ : Finset (Fin 8192)).fold min ⊤ fun i => sqDist P Q b i j)

/-- The two arrays of nearest distances. -/
def toTargetsArr (P Q : Cloud.Idx → EReal) : PerPoint.Idx → EReal := fun y => toTargets P Q (y 0) (y 1)
def toPredictedArr (P Q : Cloud.Idx → EReal) : PerPoint.Idx → EReal := fun y => toPredicted P Q (y 0) (y 1)

/-- The root of the clamp of a family's minimum from +∞ is the minimum from +∞ of the roots of the clamps. -/
theorem toTargets_eq (P Q : Cloud.Idx → EReal) (b : Fin 4) (i : Fin 8192) :
    toTargets P Q b i = (Finset.univ : Finset (Fin 8192)).fold min ⊤ fun j => clampRoot (sqDist P Q b i j) :=
  clampRoot_fold_min _ _

theorem toPredicted_eq (P Q : Cloud.Idx → EReal) (b : Fin 4) (j : Fin 8192) :
    toPredicted P Q b j = (Finset.univ : Finset (Fin 8192)).fold min ⊤ fun i => clampRoot (sqDist P Q b i j) :=
  clampRoot_fold_min _ _

/-- The mean over the batch of the half-sum of the two mean nearest distances: each array summed along its points and
    divided by 8192, the two added and halved, the four halves summed and divided by 4. The shape relations are
    hypotheses, so that either program's own evidence for them may be supplied. -/
def meanOfMeans (h1 : PerPoint.ReducesTo [1] PerBatch) (h0 : 0 < Single.numel)
    (hb : Single.BroadcastsInDim PerBatch (![] : Fin 0 → Fin PerBatch.rank)) (h2 : PerBatch.ReducesTo [0] Single)
    (a b : (⟨PerPoint, .f32⟩ : BufTy).Contents (Elt Ideal)) : (⟨Single, .f32⟩ : BufTy).Contents (Elt Ideal) :=
  Host.divf (F := Ideal)
    (Host.reduceAdd (F := Ideal)
      (Host.divf (F := Ideal)
        (addf (F := Ideal)
          (Host.divf (F := Ideal)
            (Host.reduceAdd (F := Ideal) a (constant (F := Ideal) Single .f32 0x00000000#32) h1 h0)
            (broadcastInDim PerBatch ![] hb (constant (F := Ideal) Single .f32 0x46000000#32)))
          (Host.divf (F := Ideal)
            (Host.reduceAdd (F := Ideal) b (constant (F := Ideal) Single .f32 0x00000000#32) h1 h0)
            (broadcastInDim PerBatch ![] hb (constant (F := Ideal) Single .f32 0x46000000#32))))
        (broadcastInDim PerBatch ![] hb (constant (F := Ideal) Single .f32 0x40000000#32)))
      (constant (F := Ideal) Single .f32 0x00000000#32) h2 h0)
    (constant (F := Ideal) Single .f32 0x40800000#32)

end Cert.Chamfer

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.TileValues.lean ====
/-
  The arithmetic of the kernel's body, read one element at a time on the extended reals.

  At each grid point the body holds a block of 1024 points of the first cloud and a block of 2048 points of the
  second. It forms the 1024 × 2048 tile of squared distances by the polarisation identity: the squared norm of
  each row of the first block (a sum over the three coordinates), the squared norm of each row of the second block
  (the same sum, taken along the first axis of the transposed block), their sum, and from it twice the matrix
  product of the first block by the transposed second block. It then takes the least entry of every column and
  of every row of the tile, starting from +∞, and folds them into two running minima; at the end of a sweep the
  running minima are clamped at zero and rooted. Every value the body stores is stated here at an index given by
  its coordinates, as a function of the blocks' entries.
-/
import proofs.«138287_j16003048145306_2_alg».proof.Proof.Gen.KernelIdeal.Skeleton
import proofs.«138287_j16003048145306_2_alg».proof.Proof.Distances
import Idealize.ShloMosaic.Lib.Pipeline.Value
import Idealize.ShloMosaic.Lib.ValueIdx
import Idealize.ShloMosaic.Lib.ValueLayout
import Idealize.ShloMosaic.PureOps.Ideal.Laws
import proofs.«138287_j16003048145306_2_alg».proof.Proof.LibKeepdimsColumn
import proofs.«138287_j16003048145306_2_alg».proof.Proof.LibPlainDot

noncomputable section

namespace Cert.Chamfer.Tile

open Cert.KernelIdeal Cert.KernelIdeal.Gen Idealize.ShloMosaic Idealize.ShloMosaic.ValueIdx Cert.Chamfer
open scoped BigOperators

/-! ## The values that are stored as they are, the fills and the roots -/

/-- The word of +∞ denotes the top element. -/
theorem inf_word : Ideal.ofBits .f32 0x7F800000#32 = ⊤ := by simp [Ideal.ofBits, Ideal.ieee]

/-- A running row minimum is stored unchanged. -/
theorem keep_apply (v32 : FVec Ideal S1x1024 .f32) (y : S1x1024.Idx) : k0_pay1 (F := Ideal) v32 y = v32 y :=
  congrFun (shapeCast_self v32 shapeCasts_S1x1024_S1x1024) y

/-- The running column minimum takes the minimum with the tile's column minimum. -/
theorem colAcc_apply (v29 : FVec Ideal S1x2048 .f32) (v39 : Vec Ideal S1x2048 .f32) (y : S1x2048.Idx) :
    k0_pay2 (F := Ideal) v29 v39 y = min (v39 y) (v29 y) :=
  congrFun (shapeCast_self (minimumf (F := Ideal) v39 v29) shapeCasts_S1x2048_S1x2048) y

/-- The stored row result is the root of the clamp of the running row minimum. -/
theorem rootRow_apply (v53 : Vec Ideal S1x1024 .f32) (r : Fin 1024) :
    k0_pay3 (F := Ideal) v53 (ix3 0 0 r) = clampRoot (v53 (ix2 0 r)) := by
  unfold k0_pay3
  refine (shapeCast_ab_1ab_apply _ shapeCasts_S1x1024_S1x1x1024 (0 : Fin 1) (0 : Fin 1) r).trans ?_
  show Ideal.sqrt (max (v53 (ix2 0 r)) (Ideal.ofBits .f32 0x00000000#32)) = _
  rw [Ideal.ofBits_zero_f32]
  rfl

/-- The stored column result is the root of the clamp of the running column minimum. -/
theorem rootCol_apply (v53 : Vec Ideal S1x8192 .f32) (j : Fin 8192) :
    k0_pay4 (F := Ideal) v53 (ix3 0 0 j) = clampRoot (v53 (ix2 0 j)) := by
  unfold k0_pay4
  refine (shapeCast_ab_1ab_apply _ shapeCasts_S1x8192_S1x1x8192 (0 : Fin 1) (0 : Fin 1) j).trans ?_
  show Ideal.sqrt (max (v53 (ix2 0 j)) (Ideal.ofBits .f32 0x00000000#32)) = _
  rw [Ideal.ofBits_zero_f32]
  rfl

/-- The running column minimum starts from +∞. -/
theorem fillCol_apply (y : S1x8192.Idx) : k0_pay5 (F := Ideal) y = ⊤ :=
  (congrFun (shapeCast_self (broadcast S1x8192 (Ideal.ofBits .f32 0x7F800000#32)) shapeCasts_S1x8192_S1x8192) y).trans
    inf_word

/-- The running row minimum starts from +∞. -/
theorem fillRow_apply (y : S1x1024.Idx) : k0_pay6 (F := Ideal) y = ⊤ :=
  (congrFun (shapeCast_self (broadcast S1x1024 (Ideal.ofBits .f32 0x7F800000#32)) shapeCasts_S1x1024_S1x1024) y).trans
    inf_word

/-! ## The tile of squared distances -/

/-- The squared distance between row `r` of the first block and row `c` of the second. -/
def tileDist (x0 : Vec Ideal S1x1024x3 .f32) (x1 : Vec Ideal S1x2048x3 .f32) (r : Fin 1024) (c : Fin 2048) : EReal :=
  ((∑ k : Fin 3, x0 (ix3 0 r k) * x0 (ix3 0 r k)) + (∑ k : Fin 3, x1 (ix3 0 c k) * x1 (ix3 0 c k)))
    - two * ∑ k : Fin 3, x0 (ix3 0 r k) * x1 (ix3 0 c k)

/-- The first block as a 1024 × 3 matrix: entry `(r, k)` is coordinate `k` of its point `r`. -/
theorem rows0_apply (x0 : Vec Ideal S1x1024x3 .f32) (r : Fin 1024) (k : Fin 3) :
    shapeCast S1024x3 x0 shapeCasts_S1x1024x3_S1024x3 (ix2 r k) = x0 (ix3 0 r k) :=
  shapeCast_1ab_ab_apply x0 shapeCasts_S1x1024x3_S1024x3 r k

/-- The second block as a 3 × 2048 matrix, transposed: entry `(k, c)` is coordinate `k` of its point `c`. -/
theorem cols1_apply (x1 : Vec Ideal S1x2048x3 .f32) (k : Fin 3) (c : Fin 2048) :
    transpose S3x2048 [1, 0] (shapeCast S2048x3 x1 shapeCasts_S1x2048x3_S2048x3) transposes_S2048x3_p1_0_S3x2048 (ix2 k c)
      = x1 (ix3 0 c k) :=
  (transpose_ix2_apply _ transposes_S2048x3_p1_0_S3x2048 k c).trans
    (shapeCast_1ab_ab_apply x1 shapeCasts_S1x2048x3_S2048x3 c k)

/-- A sum along the first axis of an `[a, b]` array, at column `c`, is the sum of that column's `a` entries. -/
theorem colsum_apply {a b : ℕ} (x : FVec Ideal ⟨2, ![a, b]⟩ .f32) (h : (⟨2, ![a, b]⟩ : Shape).Reduces [0] ⟨1, ![b]⟩)
    (hφ : FKind.Formats .f32) (hacc : (0x00000000#32 : BitVec 32) = 0x00000000#32) (c : Fin b) :
    multiReduction .add [0] ⟨1, ![b]⟩ x 0x00000000#32 h hφ hacc (ix1 c) = ∑ k : Fin a, x (ix2 k c) := by
  refine (Ideal.multiReduction_add_single x 0x00000000#32 h hφ hacc (ix1 c)).trans ?_
  refine Finset.sum_congr rfl fun k _ => congrArg x ?_
  funext d
  apply Fin.ext
  match d with
  | ⟨0, _⟩ => rfl
  | ⟨1, _⟩ => rfl

/-- The squared norms of the first matrix's rows, spread along the columns of the tile. -/
theorem rowNorm_apply (v9 : FVec Ideal S1024x3 .f32) (r : Fin 1024) (c : Fin 2048) :
    broadcastTo S1024x2048
        (shapeCast S1024x1
          (multiReduction .add [1] S1024 (mulf v9 v9) 0x00000000#32 reduces_S1024x3_S1024 (.inl rfl) rfl)
          shapeCasts_S1024_S1024x1)
        broadcasts_S1024x1_S1024x2048 (ix2 r c)
      = ∑ k : Fin 3, v9 (ix2 r k) * v9 (ix2 r k) :=
  (Cert.Gcn.Lib.broadcastTo_a1_ab_apply _ broadcasts_S1024x1_S1024x2048 r c).trans
    ((Cert.Gcn.Lib.shapeCast_a_a1_apply _ shapeCasts_S1024_S1024x1 r 0).trans
      (Cert.Gcn.Lib.rowsum_apply (mulf v9 v9) reduces_S1024x3_S1024 (.inl rfl) rfl r))

/-- The squared norms of the second matrix's columns, spread along the rows of the tile. -/
theorem colNorm_apply (v12 : FVec Ideal S3x2048 .f32) (r : Fin 1024) (c : Fin 2048) :
    broadcastTo S1024x2048
        (shapeCast S1x2048
          (multiReduction .add [0] S2048 (mulf v12 v12) 0x00000000#32 reduces_S3x2048_S2048 (.inl rfl) rfl)
          shapeCasts_S2048_S1x2048)
        broadcasts_S1x2048_S1024x2048 (ix2 r c)
      = ∑ k : Fin 3, v12 (ix2 k c) * v12 (ix2 k c) :=
  (broadcastTo_1b_ab_apply _ broadcasts_S1x2048_S1024x2048 r c).trans
    ((shapeCast_a_1a_apply _ shapeCasts_S2048_S1x2048 0 c).trans
      (colsum_apply (mulf v12 v12) reduces_S3x2048_S2048 (.inl rfl) rfl c))

/-- The matrix product of the two, entry by entry. -/
theorem cross_apply (v9 : FVec Ideal S1024x3 .f32) (v12 : FVec Ideal S3x2048 .f32) (r : Fin 1024) (c : Fin 2048) :
    matmul dot_S1024x3_S3x2048_S1024x2048_1_0_0_1_n_n (some .fp32) v9 v12
        (constant (F := Ideal) S1024x2048 .f32 0x00000000#32) (ix2 r c)
      = ∑ k : Fin 3, v9 (ix2 r k) * v12 (ix2 k c) :=
  congrFun (Cert.Lib.PlainDot.matmul_zero_eq dot_S1024x3_S3x2048_S1024x2048_1_0_0_1_n_n rfl (some .fp32) v9 v12) (ix2 r c)

/-- The tile's entry over the two matrices: the sum of the two squared norms less twice the product's entry. -/
theorem tile_of_matrices (v9 : FVec Ideal S1024x3 .f32) (v12 : FVec Ideal S3x2048 .f32) (r : Fin 1024) (c : Fin 2048) :
    subf
        (addf
          (broadcastTo S1024x2048
            (shapeCast S1024x1
              (multiReduction .add [1] S1024 (mulf v9 v9) 0x00000000#32 reduces_S1024x3_S1024 (.inl rfl) rfl)
              shapeCasts_S1024_S1024x1)
            broadcasts_S1024x1_S1024x2048)
          (broadcastTo S1024x2048
            (shapeCast S1x2048
              (multiReduction .add [0] S2048 (mulf v12 v12) 0x00000000#32 reduces_S3x2048_S2048 (.inl rfl) rfl)
              shapeCasts_S2048_S1x2048)
            broadcasts_S1x2048_S1024x2048))
        (mulf (broadcast S1024x2048 (Ideal.ofBits .f32 0x40000000#32))
          (matmul dot_S1024x3_S3x2048_S1024x2048_1_0_0_1_n_n (some .fp32) v9 v12
            (constant (F := Ideal) S1024x2048 .f32 0x00000000#32))) (ix2 r c)
      = ((∑ k : Fin 3, v9 (ix2 r k) * v9 (ix2 r k)) + (∑ k : Fin 3, v12 (ix2 k c) * v12 (ix2 k c)))
          - two * ∑ k : Fin 3, v9 (ix2 r k) * v12 (ix2 k c) :=
  congrArg₂ (· - ·) (congrArg₂ (· + ·) (rowNorm_apply v9 r c) (colNorm_apply v12 r c))
    (congrArg (two * ·) (cross_apply v9 v12 r c))

/-- The tile the body forms is the table of squared distances between the two blocks' points. -/
theorem tile_apply (x0 : Vec Ideal S1x1024x3 .f32) (x1 : Vec Ideal S1x2048x3 .f32) (r : Fin 1024) (c : Fin 2048) :
    k0_pay7 (F := Ideal) x0 x1 (ix2 r c) = tileDist x0 x1 r c := by
  refine (tile_of_matrices (shapeCast S1024x3 x0 shapeCasts_S1x1024x3_S1024x3)
    (transpose S3x2048 [1, 0] (shapeCast S2048x3 x1 shapeCasts_S1x2048x3_S2048x3) transposes_S2048x3_p1_0_S3x2048)
    r c).trans ?_
  exact congrArg₂ (· - ·)
    (congrArg₂ (· + ·)
      (Finset.sum_congr rfl fun k _ => congrArg₂ (· * ·) (rows0_apply x0 r k) (rows0_apply x0 r k))
      (Finset.sum_congr rfl fun k _ => congrArg₂ (· * ·) (cols1_apply x1 k c) (cols1_apply x1 k c)))
    (congrArg (two * ·)
      (Finset.sum_congr rfl fun k _ => congrArg₂ (· * ·) (rows0_apply x0 r k) (cols1_apply x1 k c)))

/-! ## The least entries of the tile's columns and rows -/

/-- A minimum along one axis, from the accumulator's value, is the fold of `min` from that value over the axis's
    coordinates (the reduced index with the coordinate put back names the entry). -/
theorem multiReduction_minimumf_single {s t : Shape} {φ : FTy} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A minimum from +∞ along the first axis of an `[a, b]` array, at column `c`, is the least of that column's
    `a` entries. -/
theorem colmin_apply {a b : ℕ} (x : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (c : Fin b) :
    multiReduction .minimumf [0] ⟨1, ![b]⟩ x 0x7F800000#32 h hφ hacc (ix1 c)
      = (Finset.univ : Finset (Fin a)).fold min ⊤ fun k => x (ix2 k c) := by
  refine (multiReduction_minimumf_single x 0x7F800000#32 h hφ hacc (ix1 c)).trans ?_
  refine (congrArg (fun z => (Finset.univ : Finset (Fin a)).fold min z (x ∘ h.lift (ix1 c))) inf_word).trans ?_
  refine congrArg (fun f => (Finset.univ : Finset (Fin a)).fold min ⊤ f) (funext fun k => congrArg x ?_)
  funext d
  apply Fin.ext
  match d with
  | ⟨0, _⟩ => rfl
  | ⟨1, _⟩ => rfl

/-- A minimum from +∞ along the second axis of an `[a, b]` array, at row `r`, is the least of that row's `b`
    entries. -/
theorem rowmin_apply {a b : ℕ} (x : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (r : Fin a) :
    multiReduction .minimumf [1] ⟨1, ![a]⟩ x 0x7F800000#32 h hφ hacc (ix1 r)
      = (Finset.univ : Finset (Fin b)).fold min ⊤ fun k => x (ix2 r k) := by
  refine (multiReduction_minimumf_single x 0x7F800000#32 h hφ hacc (ix1 r)).trans ?_
  refine (congrArg (fun z => (Finset.univ : Finset (Fin b)).fold min z (x ∘ h.lift (ix1 r))) inf_word).trans ?_
  refine congrArg (fun f => (Finset.univ : Finset (Fin b)).fold min ⊤ f) (funext fun k => congrArg x ?_)
  funext d
  apply Fin.ext
  match d with
  | ⟨0, _⟩ => rfl
  | ⟨1, _⟩ => rfl

/-- The column minima of a 1024 × 2048 tile, kept as one row. -/
theorem colMin_of_tile (T : FVec Ideal S1024x2048 .f32) (c : Fin 2048) :
    shapeCast S1x2048
        (multiReduction .minimumf [0] S2048 T 0x7F800000#32 reduces_S1024x2048_S2048 (.inl rfl) rfl)
        shapeCasts_S2048_S1x2048 (ix2 0 c)
      = (Finset.univ : Finset (Fin 1024)).fold min ⊤ fun r => T (ix2 r c) :=
  (shapeCast_a_1a_apply _ shapeCasts_S2048_S1x2048 0 c).trans
    (colmin_apply T reduces_S1024x2048_S2048 (.inl rfl) rfl c)

/-- The row minima of a 1024 × 2048 tile, kept as a column and laid down as one row. -/
theorem rowMin_of_tile (T : FVec Ideal S1024x2048 .f32) (r : Fin 1024) :
    transpose S1x1024 [1, 0]
        (shapeCast S1024x1
          (multiReduction .minimumf [1] S1024 T 0x7F800000#32 reduces_S1024x2048_S1024 (.inl rfl) rfl)
          shapeCasts_S1024_S1024x1)
        transposes_S1024x1_p1_0_S1x1024 (ix2 0 r)
      = (Finset.univ : Finset (Fin 2048)).fold min ⊤ fun c => T (ix2 r c) :=
  (transpose_ix2_apply _ transposes_S1024x1_p1_0_S1x1024 (0 : Fin 1) r).trans
    ((Cert.Gcn.Lib.shapeCast_a_a1_apply _ shapeCasts_S1024_S1024x1 r 0).trans
      (rowmin_apply T reduces_S1024x2048_S1024 (.inl rfl) rfl r))

/-- The tile's column minimum at column `c`: the least squared distance from the second block's point `c` to the
    first block's points. -/
theorem colMin_apply (x0 : Vec Ideal S1x1024x3 .f32) (x1 : Vec Ideal S1x2048x3 .f32) (c : Fin 2048) :
    k0_pay8 (F := Ideal) x0 x1 (ix2 0 c)
      = (Finset.univ : Finset (Fin 1024)).fold min ⊤ fun r => tileDist x0 x1 r c :=
  (colMin_of_tile (k0_pay7 (F := Ideal) x0 x1) c).trans
    (congrArg (fun f => (Finset.univ : Finset (Fin 1024)).fold min ⊤ f) (funext fun r => tile_apply x0 x1 r c))

/-- The running row minimum at row `r` takes the minimum with the least squared distance from the first block's
    point `r` to the second block's points. -/
theorem rowMin_apply (x0 : Vec Ideal S1x1024x3 .f32) (x1 : Vec Ideal S1x2048x3 .f32) (v31 : Vec Ideal S1x1024 .f32)
    (r : Fin 1024) :
    k0_pay9 (F := Ideal) x0 x1 v31 (ix2 0 r)
      = min (v31 (ix2 0 r)) ((Finset.univ : Finset (Fin 2048)).fold min ⊤ fun c => tileDist x0 x1 r c) :=
  congrArg (min (v31 (ix2 0 r)))
    ((rowMin_of_tile (k0_pay7 (F := Ideal) x0 x1) r).trans
      (congrArg (fun f => (Finset.univ : Finset (Fin 2048)).fold min ⊤ f) (funext fun c => tile_apply x0 x1 r c)))

end Cert.Chamfer.Tile

end
-- ==== Proof.RunningMin.lean ====
/-
  A running minimum over consecutive windows of a finite family, by its universal property.

  A value `v` is the minimum from +∞ of the entries `d j` with `j` below a bound exactly when the values below
  `v` are the values below every such entry. Taking the minimum of such a `v` with the minimum from +∞ of the next
  window of `B` entries moves the bound up by `B`; from the bound 0 one may start at +∞; and at the family's full
  length `v` is the minimum from +∞ of the whole family.
-/
import Mathlib

namespace Cert.Chamfer

/-- The values below a minimum from +∞ are the values below every entry. -/
theorem le_fold_min_top {ι : Type*} (s : Finset ι) (f : ι → EReal) (z : EReal) :
    z ≤ s.fold min ⊤ f ↔ ∀ x ∈ s, z ≤ f x := by
  rw [Finset.le_fold_min]
  exact ⟨fun h => h.2, fun h => ⟨le_top, h⟩⟩

/-- Below the bound 0 there is no entry: +∞ has the property. -/
theorem running_min_start {N : ℕ} (d : Fin N → EReal) (z : EReal) :
    z ≤ (⊤ : EReal) ↔ ∀ j : Fin N, j.val < 0 → z ≤ d j :=
  ⟨fun _ j hj => absurd hj (Nat.not_lt_zero _), fun _ => le_top⟩

/-- One step: the minimum with the next window's minimum moves the bound from `o` to `o + B`. -/
theorem running_min_step {N B : ℕ} (d : Fin N → EReal) (o : ℕ) (ho : o + B ≤ N) (prev new : EReal)
    (tile : Fin B → EReal) (htile : ∀ (q : Fin B) (j : Fin N), j.val = o + q.val → tile q = d j)
    (hnew : new = min prev ((Finset.univ : Finset (Fin B)).fold min ⊤ tile))
    (hprev : ∀ z, z ≤ prev ↔ ∀ j : Fin N, j.val < o → z ≤ d j) :
    ∀ z, z ≤ new ↔ ∀ j : Fin N, j.val < o + B → z ≤ d j := by
  intro z
  rw [hnew, le_min_iff, hprev z, le_fold_min_top]
  constructor
  · rintro ⟨h1, h2⟩ j hj
    by_cases hlt : j.val < o
    · exact h1 j hlt
    · have hq : j.val - o < B := by omega
      rw [← htile ⟨j.val - o, hq⟩ j (by show j.val = o + (j.val - o); omega)]
      exact h2 _ (Finset.mem_univ _)
  · intro h
    refine ⟨fun j hj => h j (by omega), fun q _ => ?_⟩
    have hq := q.isLt
    rw [htile q ⟨o + q.val, by omega⟩ rfl]
    exact h _ (by show o + q.val < o + B; omega)

/-- At the full length the value is the minimum from +∞ of the whole family. -/
theorem running_min_full {N : ℕ} (d : Fin N → EReal) (v : EReal)
    (h : ∀ z, z ≤ v ↔ ∀ j : Fin N, j.val < N → z ≤ d j) :
    v = (Finset.univ : Finset (Fin N)).fold min ⊤ d :=
  eq_of_forall_le_iff fun z => by
    rw [h z, le_fold_min_top]
    exact ⟨fun hh j _ => hh j j.isLt, fun hh j _ => hh j (Finset.mem_univ _)⟩

end Cert.Chamfer
-- ==== Proof.AccInvariant.lean ====
/-
  What the two running minima hold after each grid point, and what the result blocks receive.

  Point `t` of the grid is batch `t / 32`, block `n = t / 4 % 8` of predicted points and block `m = t % 4` of target
  points. After the body has run at `t`:
  * the first running minimum holds, for row `r` of the current block of predicted points, the least squared distance
    from predicted point `1024 n + r` to the target points below `2048 (m + 1)`: the sweep over the target blocks
    started from +∞ at `m = 0` and each step took the minimum with the tile's row minima;
  * the second holds, for target point `j`, the least squared distance to the predicted points below `1024 n`, and
    below `1024 (n + 1)` once the sweep has passed `j`'s own block (`j / 2048 ≤ m`): the batch started from +∞ and
    each step took, on its own columns, the minimum with the tile's column minima.
  Each is stated by its universal property: the values below the entry are the values below every squared distance in
  range. At `m = 3` the first range is all 8192 target points, and at `n = 7`, `m = 3` the second is all 8192
  predicted points; the result blocks then receive the roots of the clamps, the nearest distances.
-/
import proofs.«138287_j16003048145306_2_alg».proof.Proof.TileValues
import proofs.«138287_j16003048145306_2_alg».proof.Proof.RunningMin
import proofs.«138287_j16003048145306_2_alg».proof.Proof.Distances

noncomputable section

namespace Cert.Chamfer.Acc

open Idealize.ShloMosaic Idealize.ShloMosaic.ValueIdx
open Cert.KernelIdeal Cert.KernelIdeal.Gen Cert.Chamfer Cert.Chamfer.Tile

variable (P Q : Cloud.Idx → EReal)

/-- `x0` is the block of predicted points shown at point `t`. -/
def IsPredBlock (t : ℕ) (x0 : Vec Ideal S1x1024x3 .f32) : Prop :=
  ∀ (r : Fin 1024) (k : Fin 3) (b : Fin 4) (row : Fin 8192), b.val = t / 32 → row.val = 1024 * (t / 4 % 8) + r.val →
    x0 (ix3 0 r k) = P (ix3 b row k)

/-- `x1` is the block of target points shown at point `t`. -/
def IsTargBlock (t : ℕ) (x1 : Vec Ideal S1x2048x3 .f32) : Prop :=
  ∀ (q : Fin 2048) (k : Fin 3) (b : Fin 4) (col : Fin 8192), b.val = t / 32 → col.val = 2048 * (t % 4) + q.val →
    x1 (ix3 0 q k) = Q (ix3 b col k)

variable {P Q}

/-- An entry of the tile is the squared distance between the two points it pairs. -/
theorem tileDist_eq {t : ℕ} {x0 : Vec Ideal S1x1024x3 .f32} {x1 : Vec Ideal S1x2048x3 .f32}
    (h0 : IsPredBlock P t x0) (h1 : IsTargBlock Q t x1) (r : Fin 1024) (q : Fin 2048) (b : Fin 4) (row col : Fin 8192)
    (hb : b.val = t / 32) (hrow : row.val = 1024 * (t / 4 % 8) + r.val) (hcol : col.val = 2048 * (t % 4) + q.val) :
    tileDist x0 x1 r q = sqDist P Q b row col := by
  unfold tileDist sqDist
  simp only [fun k => h0 r k b row hb hrow, fun k => h1 q k b col hb hcol]

variable (P Q)

/-- The first running minimum after point `t`. -/
def RowInv (t : ℕ) (acc : Vec Ideal S1x1024 .f32) : Prop :=
  ∀ (r : Fin 1024) (b : Fin 4) (row : Fin 8192), b.val = t / 32 → row.val = 1024 * (t / 4 % 8) + r.val →
    ∀ z : EReal, z ≤ acc (ix2 0 r) ↔ ∀ j : Fin 8192, j.val < 2048 * (t % 4) + 2048 → z ≤ sqDist P Q b row j

/-- The second running minimum after point `t`. -/
def ColInv (t : ℕ) (acc : Vec Ideal S1x8192 .f32) : Prop :=
  ∀ (j : Fin 8192) (b : Fin 4), b.val = t / 32 →
    ∀ z : EReal, z ≤ acc (ix2 0 j) ↔
      ∀ i : Fin 8192, i.val < 1024 * (t / 4 % 8) + (if j.val / 2048 ≤ t % 4 then 1024 else 0) → z ≤ sqDist P Q b i j

variable {P Q}

/-- One step of the first running minimum, from contents that hold the targets below `2048 m`. -/
theorem rowInv_step (t : ℕ) (ht : t < 128) {x0 : Vec Ideal S1x1024x3 .f32} {x1 : Vec Ideal S1x2048x3 .f32}
    (h0 : IsPredBlock P t x0) (h1 : IsTargBlock Q t x1) (p0 new : Vec Ideal S1x1024 .f32)
    (hnew : new = k0_pay1 (k0_pay9 x0 x1 p0))
    (hprev : ∀ (r : Fin 1024) (b : Fin 4) (row : Fin 8192), b.val = t / 32 → row.val = 1024 * (t / 4 % 8) + r.val →
      ∀ z : EReal, z ≤ p0 (ix2 0 r) ↔ ∀ j : Fin 8192, j.val < 2048 * (t % 4) → z ≤ sqDist P Q b row j) :
    RowInv P Q t new := by
  intro r b row hb hrow
  refine running_min_step (N := 8192) (B := 2048) (fun j => sqDist P Q b row j) (2048 * (t % 4)) (by omega)
    (p0 (ix2 0 r)) (new (ix2 0 r)) (fun q => tileDist x0 x1 r q) ?_ ?_ (hprev r b row hb hrow)
  · intro q j hj
    exact tileDist_eq h0 h1 r q b row j hb hrow hj
  · rw [hnew]
    exact (keep_apply (k0_pay9 x0 x1 p0) (ix2 0 r)).trans (rowMin_apply x0 x1 p0 r)

/-- A step inside a sweep carries the first running minimum on. -/
theorem rowInv_carry (t : ℕ) (ht : t < 128) (hm : t % 4 ≠ 0) {x0 : Vec Ideal S1x1024x3 .f32} {x1 : Vec Ideal S1x2048x3 .f32}
    (h0 : IsPredBlock P t x0) (h1 : IsTargBlock Q t x1) (p0 new : Vec Ideal S1x1024 .f32)
    (hnew : new = k0_pay1 (k0_pay9 x0 x1 p0)) (ih : RowInv P Q (t - 1) p0) : RowInv P Q t new :=
  rowInv_step t ht h0 h1 p0 new hnew fun r b row hb hrow z => by
    rw [ih r b row (by omega) (by omega) z, show 2048 * ((t - 1) % 4) + 2048 = 2048 * (t % 4) from by omega]

/-- The first step of a sweep starts the first running minimum from +∞. -/
theorem rowInv_reset (t : ℕ) (ht : t < 128) (hm : t % 4 = 0) {x0 : Vec Ideal S1x1024x3 .f32} {x1 : Vec Ideal S1x2048x3 .f32}
    (h0 : IsPredBlock P t x0) (h1 : IsTargBlock Q t x1) (new : Vec Ideal S1x1024 .f32)
    (hnew : new = k0_pay1 (k0_pay9 x0 x1 (k0_pay6 (F := Ideal)))) : RowInv P Q t new :=
  rowInv_step t ht h0 h1 (k0_pay6 (F := Ideal)) new hnew fun r b row hb hrow z => by
    rw [fillRow_apply, hm, Nat.mul_zero]
    exact running_min_start _ z

/-- One step of the second running minimum, from contents that hold the predicted points below `1024 n`, and below
    `1024 (n + 1)` on the target blocks the sweep has already passed. -/
theorem colInv_step (t : ℕ) (ht : t < 128) {x0 : Vec Ideal S1x1024x3 .f32} {x1 : Vec Ideal S1x2048x3 .f32}
    (h0 : IsPredBlock P t x0) (h1 : IsTargBlock Q t x1) (p1 new : Vec Ideal S1x8192 .f32)
    (hin : ∀ (j : Fin 8192) (q : Fin 2048), j.val = 2048 * (t % 4) + q.val →
      new (ix2 0 j) = min (p1 (ix2 0 j)) (k0_pay8 x0 x1 (ix2 0 q)))
    (hout : ∀ j : Fin 8192, (j.val < 2048 * (t % 4) ∨ 2048 * (t % 4) + 2048 ≤ j.val) → new (ix2 0 j) = p1 (ix2 0 j))
    (hprev : ∀ (j : Fin 8192) (b : Fin 4), b.val = t / 32 → ∀ z : EReal, z ≤ p1 (ix2 0 j) ↔
      ∀ i : Fin 8192, i.val < 1024 * (t / 4 % 8) + (if j.val / 2048 < t % 4 then 1024 else 0) → z ≤ sqDist P Q b i j) :
    ColInv P Q t new := by
  intro j b hb z
  have hj := j.isLt
  by_cases hjin : j.val / 2048 = t % 4
  · have hq : j.val - 2048 * (t % 4) < 2048 := by omega
    rw [hin j ⟨j.val - 2048 * (t % 4), hq⟩ (by show j.val = 2048 * (t % 4) + (j.val - 2048 * (t % 4)); omega),
      if_pos (le_of_eq hjin)]
    refine running_min_step (N := 8192) (B := 1024) (fun i => sqDist P Q b i j) (1024 * (t / 4 % 8)) (by omega)
      (p1 (ix2 0 j)) _ (fun r => tileDist x0 x1 r ⟨j.val - 2048 * (t % 4), hq⟩) ?_ ?_ ?_ z
    · intro r i hi
      exact tileDist_eq h0 h1 r _ b i j hb hi (by show j.val = 2048 * (t % 4) + (j.val - 2048 * (t % 4)); omega)
    · rw [colMin_apply]
    · intro z'
      rw [hprev j b hb z', if_neg (by omega), Nat.add_zero]
  · rw [hout j (by omega), hprev j b hb z]
    by_cases hlt : j.val / 2048 < t % 4
    · rw [if_pos hlt, if_pos (le_of_lt hlt)]
    · rw [if_neg hlt, if_neg (by omega)]

/-- A later step of a batch carries the second running minimum on. -/
theorem colInv_carry (t : ℕ) (ht : t < 128) (hb32 : t % 32 ≠ 0) {x0 : Vec Ideal S1x1024x3 .f32} {x1 : Vec Ideal S1x2048x3 .f32}
    (h0 : IsPredBlock P t x0) (h1 : IsTargBlock Q t x1) (p1 new : Vec Ideal S1x8192 .f32)
    (hin : ∀ (j : Fin 8192) (q : Fin 2048), j.val = 2048 * (t % 4) + q.val →
      new (ix2 0 j) = min (p1 (ix2 0 j)) (k0_pay8 x0 x1 (ix2 0 q)))
    (hout : ∀ j : Fin 8192, (j.val < 2048 * (t % 4) ∨ 2048 * (t % 4) + 2048 ≤ j.val) → new (ix2 0 j) = p1 (ix2 0 j))
    (ih : ColInv P Q (t - 1) p1) : ColInv P Q t new :=
  colInv_step t ht h0 h1 p1 new hin hout fun j b hb z => by
    have hj := j.isLt
    have e : 1024 * ((t - 1) / 4 % 8) + (if j.val / 2048 ≤ (t - 1) % 4 then 1024 else 0)
        = 1024 * (t / 4 % 8) + (if j.val / 2048 < t % 4 then 1024 else 0) := by
      split_ifs <;> omega
    rw [ih j b (by omega) z, e]

/-- The first step of a batch starts the second running minimum from +∞. -/
theorem colInv_reset (t : ℕ) (ht : t < 128) (hb32 : t % 32 = 0) {x0 : Vec Ideal S1x1024x3 .f32} {x1 : Vec Ideal S1x2048x3 .f32}
    (h0 : IsPredBlock P t x0) (h1 : IsTargBlock Q t x1) (new : Vec Ideal S1x8192 .f32)
    (hin : ∀ (j : Fin 8192) (q : Fin 2048), j.val = 2048 * (t % 4) + q.val →
      new (ix2 0 j) = min (k0_pay5 (F := Ideal) (ix2 0 j)) (k0_pay8 x0 x1 (ix2 0 q)))
    (hout : ∀ j : Fin 8192, (j.val < 2048 * (t % 4) ∨ 2048 * (t % 4) + 2048 ≤ j.val) →
      new (ix2 0 j) = k0_pay5 (F := Ideal) (ix2 0 j)) : ColInv P Q t new :=
  colInv_step t ht h0 h1 (k0_pay5 (F := Ideal)) new hin hout fun j b hb z => by
    have e : 1024 * (t / 4 % 8) + (if j.val / 2048 < t % 4 then 1024 else 0) = 0 := by
      split_ifs <;> omega
    rw [fillCol_apply, e]
    exact running_min_start _ z

/-- At the last step of a sweep the first result block receives the distances to the nearest target point. -/
theorem rows_out (t : ℕ) (ht : t < 128) (hm : t % 4 = 3) (acc : Vec Ideal S1x1024 .f32) (hinv : RowInv P Q t acc)
    (out : Vec Ideal S1x1x1024 .f32) (hout : out = k0_pay3 acc) (r : Fin 1024) (b : Fin 4) (row : Fin 8192)
    (hb : b.val = t / 32) (hrow : row.val = 1024 * (t / 4 % 8) + r.val) :
    out (ix3 0 0 r) = toTargets P Q b row := by
  rw [hout, rootRow_apply]
  unfold toTargets
  refine congrArg clampRoot (running_min_full (fun j => sqDist P Q b row j) _ fun z => ?_)
  rw [hinv r b row hb hrow z, show 2048 * (t % 4) + 2048 = 8192 from by omega]

/-- At the last step of a batch the second result block receives the distances to the nearest predicted point. -/
theorem cols_out (t : ℕ) (ht : t < 128) (hm : t % 32 = 31) (acc : Vec Ideal S1x8192 .f32) (hinv : ColInv P Q t acc)
    (out : Vec Ideal S1x1x8192 .f32) (hout : out = k0_pay4 acc) (j : Fin 8192) (b : Fin 4) (hb : b.val = t / 32) :
    out (ix3 0 0 j) = toPredicted P Q b j := by
  have hj := j.isLt
  rw [hout, rootCol_apply]
  unfold toPredicted
  refine congrArg clampRoot (running_min_full (fun i => sqDist P Q b i j) _ fun z => ?_)
  rw [hinv j b hb z, show 1024 * (t / 4 % 8) + (if j.val / 2048 ≤ t % 4 then 1024 else 0) = 8192 from by
    rw [if_pos (by omega)]; omega]

end Cert.Chamfer.Acc

end
-- ==== Proof.PointInvariant.lean ====
/-
  The running minima after every grid point, by induction along the grid.

  The first point of a batch starts both running minima from +∞; the first point of a later sweep over the target
  blocks starts the first from +∞ and carries the second on; every other point carries both on. At the last point of a
  sweep the first result block is the root of the clamp of the first running minimum as that point leaves it, and at
  the last point of a batch the second result block is the root of the clamp of the second.
-/
import proofs.«138287_j16003048145306_2_alg».proof.Proof.Pieces
import proofs.«138287_j16003048145306_2_alg».proof.Proof.Blocks
import proofs.«138287_j16003048145306_2_alg».proof.Proof.AccInvariant

noncomputable section

namespace Cert.Chamfer.Points

open Idealize.ShloMosaic Idealize.ShloMosaic.TcCoe Idealize.SL.Sem Idealize.ShloMosaic.ValueIdx
open Cert.KernelIdeal Cert.KernelIdeal.Gen Cert.Chamfer Cert.Chamfer.Tile Cert.Chamfer.Acc Cert.Chamfer.Pieces Cert.Chamfer.Blocks

variable (m : (ℓ : Loc nD τ sig) → Buf (Elt Ideal) ℓ) (c : Dev nD)

/-- The two clouds as the kernel's region finds them. -/
abbrev predCloud : Cloud.Idx → EReal := V m c main_arg0
abbrev targCloud : Cloud.Idx → EReal := V m c main_arg1

theorem isPredBlock (t : Fin cfg0.N) : IsPredBlock (predCloud m c) t.val (iblk m c 0 t) :=
  fun r k b row hb hrow => predBlock_apply m c t r k b row hb hrow

theorem isTargBlock (t : Fin cfg0.N) : IsTargBlock (targCloud m c) t.val (iblk m c 1 t) :=
  fun q k b col hb hcol => targBlock_apply m c t q k b col hb hcol

/-- Both running minima are as described after point `n`. -/
def Inv (n : ℕ) (h : n < cfg0.N) : Prop :=
  RowInv (predCloud m c) (targCloud m c) n (outsAt0 m c n h).2.2.1
    ∧ ColInv (predCloud m c) (targCloud m c) n (outsAt0 m c n h).2.2.2

/-- The first point of a batch. -/
theorem step_A (t : Fin cfg0.N) (h0 : t.val % 32 = 0) (h1 : t.val % 4 = 0) (h2 : ¬t.val % 4 = 3) (h3 : ¬t.val % 32 = 31) : Inv m c t.val t.isLt := by
  have hN : t.val < 128 := lt_of_lt_of_eq t.isLt N_0
  have hc0 : cond0_0 (grid0.coords t) := (hcond0_0 t).mpr h0
  have hc1 : cond0_1 (grid0.coords t) := (hcond0_1 t).mpr h1
  have hc2 : ¬cond0_2 (grid0.coords t) := fun h => h2 ((hcond0_2 t).mp h)
  have hc3 : ¬cond0_3 (grid0.coords t) := fun h => h3 ((hcond0_3 t).mp h)
  unfold Inv
  rw [outsAt0_A m c t h0 h1 h2 h3]
  dsimp only
  refine ⟨rowInv_reset t.val hN h1 (isPredBlock m c t) (isTargBlock m c t) _
      (rowAcc_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) hc0 hc1 hc2 hc3),
    colInv_reset t.val hN h0 (isPredBlock m c t) (isTargBlock m c t) _ (fun j q hq => ?_) (fun j hj => ?_)⟩
  · exact ((colAcc_A_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)  hc0 hc1 hc2 hc3 j q (by rw [coord2]; exact hq)).trans (colAcc_apply _ _ _)).trans
      (congrArg (fun v => min v _) (colsOf_apply (F := Ideal) (grid0.coords t) (k0_pay5 (F := Ideal)) j q (by rw [coord2]; exact hq)))
  · exact colAcc_A_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)  hc0 hc1 hc2 hc3 j (by rw [coord2]; exact hj)

/-- The first point of a later sweep over the target blocks. -/
theorem step_D (t : Fin cfg0.N) (h0 : ¬t.val % 32 = 0) (h1 : t.val % 4 = 0) (h2 : ¬t.val % 4 = 3) (h3 : ¬t.val % 32 = 31) (ih : Inv m c (t.val - 1) (Nat.lt_of_le_of_lt (Nat.sub_le _ _) t.isLt)) : Inv m c t.val t.isLt := by
  have hN : t.val < 128 := lt_of_lt_of_eq t.isLt N_0
  have hc0 : ¬cond0_0 (grid0.coords t) := fun h => h0 ((hcond0_0 t).mp h)
  have hc1 : cond0_1 (grid0.coords t) := (hcond0_1 t).mpr h1
  have hc2 : ¬cond0_2 (grid0.coords t) := fun h => h2 ((hcond0_2 t).mp h)
  have hc3 : ¬cond0_3 (grid0.coords t) := fun h => h3 ((hcond0_3 t).mp h)
  unfold Inv
  rw [outsAt0_D m c t h0 h1 h2 h3]
  dsimp only
  obtain ⟨-, ihc⟩ := ih
  generalize (outsAt0 m c (t.val - 1) _).2.2.2 = p1 at ihc ⊢
  refine ⟨rowInv_reset t.val hN h1 (isPredBlock m c t) (isTargBlock m c t) _
      (rowAcc_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p1 hc0 hc1 hc2 hc3),
    colInv_carry t.val hN h0 (isPredBlock m c t) (isTargBlock m c t) p1 _ (fun j q hq => ?_) (fun j hj => ?_) ihc⟩
  · exact ((colAcc_D_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p1 hc0 hc1 hc2 hc3 j q (by rw [coord2]; exact hq)).trans (colAcc_apply _ _ _)).trans
      (congrArg (fun v => min v _) (colsOf_apply (F := Ideal) (grid0.coords t) p1 j q (by rw [coord2]; exact hq)))
  · exact colAcc_D_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p1 hc0 hc1 hc2 hc3 j (by rw [coord2]; exact hj)

/-- A point in the middle of a sweep. -/
theorem step_B (t : Fin cfg0.N) (h0 : ¬t.val % 32 = 0) (h1 : ¬t.val % 4 = 0) (h2 : ¬t.val % 4 = 3) (h3 : ¬t.val % 32 = 31) (ih : Inv m c (t.val - 1) (Nat.lt_of_le_of_lt (Nat.sub_le _ _) t.isLt)) : Inv m c t.val t.isLt := by
  have hN : t.val < 128 := lt_of_lt_of_eq t.isLt N_0
  have hc0 : ¬cond0_0 (grid0.coords t) := fun h => h0 ((hcond0_0 t).mp h)
  have hc1 : ¬cond0_1 (grid0.coords t) := fun h => h1 ((hcond0_1 t).mp h)
  have hc2 : ¬cond0_2 (grid0.coords t) := fun h => h2 ((hcond0_2 t).mp h)
  have hc3 : ¬cond0_3 (grid0.coords t) := fun h => h3 ((hcond0_3 t).mp h)
  unfold Inv
  rw [outsAt0_B m c t h0 h1 h2 h3]
  dsimp only
  obtain ⟨ihr, ihc⟩ := ih
  generalize (outsAt0 m c (t.val - 1) _).2.2.1 = p0 at ihr ⊢
  generalize (outsAt0 m c (t.val - 1) _).2.2.2 = p1 at ihc ⊢
  refine ⟨rowInv_carry t.val hN h1 (isPredBlock m c t) (isTargBlock m c t) p0 _
      (rowAcc_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3) ihr,
    colInv_carry t.val hN h0 (isPredBlock m c t) (isTargBlock m c t) p1 _ (fun j q hq => ?_) (fun j hj => ?_) ihc⟩
  · exact ((colAcc_B_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3 j q (by rw [coord2]; exact hq)).trans (colAcc_apply _ _ _)).trans
      (congrArg (fun v => min v _) (colsOf_apply (F := Ideal) (grid0.coords t) p1 j q (by rw [coord2]; exact hq)))
  · exact colAcc_B_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3 j (by rw [coord2]; exact hj)

/-- The last point of a sweep that is not the batch's last. -/
theorem step_C (t : Fin cfg0.N) (h0 : ¬t.val % 32 = 0) (h1 : ¬t.val % 4 = 0) (h2 : t.val % 4 = 3) (h3 : ¬t.val % 32 = 31) (ih : Inv m c (t.val - 1) (Nat.lt_of_le_of_lt (Nat.sub_le _ _) t.isLt)) : Inv m c t.val t.isLt := by
  have hN : t.val < 128 := lt_of_lt_of_eq t.isLt N_0
  have hc0 : ¬cond0_0 (grid0.coords t) := fun h => h0 ((hcond0_0 t).mp h)
  have hc1 : ¬cond0_1 (grid0.coords t) := fun h => h1 ((hcond0_1 t).mp h)
  have hc2 : cond0_2 (grid0.coords t) := (hcond0_2 t).mpr h2
  have hc3 : ¬cond0_3 (grid0.coords t) := fun h => h3 ((hcond0_3 t).mp h)
  unfold Inv
  rw [outsAt0_C m c t h0 h1 h2 h3]
  dsimp only
  obtain ⟨ihr, ihc⟩ := ih
  generalize (outsAt0 m c (t.val - 1) _).2.2.1 = p0 at ihr ⊢
  generalize (outsAt0 m c (t.val - 1) _).2.2.2 = p1 at ihc ⊢
  refine ⟨rowInv_carry t.val hN h1 (isPredBlock m c t) (isTargBlock m c t) p0 _
      (rowAcc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3) ihr,
    colInv_carry t.val hN h0 (isPredBlock m c t) (isTargBlock m c t) p1 _ (fun j q hq => ?_) (fun j hj => ?_) ihc⟩
  · exact ((colAcc_C_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3 j q (by rw [coord2]; exact hq)).trans (colAcc_apply _ _ _)).trans
      (congrArg (fun v => min v _) (colsOf_apply (F := Ideal) (grid0.coords t) p1 j q (by rw [coord2]; exact hq)))
  · exact colAcc_C_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3 j (by rw [coord2]; exact hj)

/-- The last point of a batch. -/
theorem step_E (t : Fin cfg0.N) (h0 : ¬t.val % 32 = 0) (h1 : ¬t.val % 4 = 0) (h2 : t.val % 4 = 3) (h3 : t.val % 32 = 31) (ih : Inv m c (t.val - 1) (Nat.lt_of_le_of_lt (Nat.sub_le _ _) t.isLt)) : Inv m c t.val t.isLt := by
  have hN : t.val < 128 := lt_of_lt_of_eq t.isLt N_0
  have hc0 : ¬cond0_0 (grid0.coords t) := fun h => h0 ((hcond0_0 t).mp h)
  have hc1 : ¬cond0_1 (grid0.coords t) := fun h => h1 ((hcond0_1 t).mp h)
  have hc2 : cond0_2 (grid0.coords t) := (hcond0_2 t).mpr h2
  have hc3 : cond0_3 (grid0.coords t) := (hcond0_3 t).mpr h3
  unfold Inv
  rw [outsAt0_E m c t h0 h1 h2 h3]
  dsimp only
  obtain ⟨ihr, ihc⟩ := ih
  generalize (outsAt0 m c (t.val - 1) _).2.2.1 = p0 at ihr ⊢
  generalize (outsAt0 m c (t.val - 1) _).2.2.2 = p1 at ihc ⊢
  refine ⟨rowInv_carry t.val hN h1 (isPredBlock m c t) (isTargBlock m c t) p0 _
      (rowAcc_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3) ihr,
    colInv_carry t.val hN h0 (isPredBlock m c t) (isTargBlock m c t) p1 _ (fun j q hq => ?_) (fun j hj => ?_) ihc⟩
  · exact ((colAcc_E_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3 j q (by rw [coord2]; exact hq)).trans (colAcc_apply _ _ _)).trans
      (congrArg (fun v => min v _) (colsOf_apply (F := Ideal) (grid0.coords t) p1 j q (by rw [coord2]; exact hq)))
  · exact colAcc_E_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3 j (by rw [coord2]; exact hj)

/-- Both running minima are as described after every point. -/
theorem inv_all : ∀ (n : ℕ) (h : n < cfg0.N), Inv m c n h
  | 0, h => step_A m c ⟨0, h⟩ rfl rfl (by show ¬(0 % 4 = 3); omega) (by show ¬(0 % 32 = 31); omega)
  | n + 1, h => by
    have ih := inv_all n (Nat.lt_of_succ_lt h)
    have hN : n + 1 < 128 := lt_of_lt_of_eq h N_0
    by_cases h0 : (n + 1) % 32 = 0
    · exact step_A m c ⟨n + 1, h⟩ h0 (by show (n + 1) % 4 = 0; omega) (by show ¬(n + 1) % 4 = 3; omega) (by show ¬(n + 1) % 32 = 31; omega)
    · by_cases h1 : (n + 1) % 4 = 0
      · exact step_D m c ⟨n + 1, h⟩ h0 h1 (by show ¬(n + 1) % 4 = 3; omega) (by show ¬(n + 1) % 32 = 31; omega) ih
      · by_cases h2 : (n + 1) % 4 = 3
        · by_cases h3 : (n + 1) % 32 = 31
          · exact step_E m c ⟨n + 1, h⟩ h0 h1 h2 h3 ih
          · exact step_C m c ⟨n + 1, h⟩ h0 h1 h2 h3 ih
        · exact step_B m c ⟨n + 1, h⟩ h0 h1 h2 (by show ¬(n + 1) % 32 = 31; omega) ih

/-- At the last point of a sweep the first result block is the root of the clamp of the first running minimum. -/
theorem rows_block (t : Fin cfg0.N) (hm : t.val % 4 = 3) :
    (outsAt0 m c t.val t.isLt).1 = k0_pay3 (outsAt0 m c t.val t.isLt).2.2.1 := by
  have hN : t.val < 128 := lt_of_lt_of_eq t.isLt N_0
  have h0 : ¬t.val % 32 = 0 := by omega
  have h1 : ¬t.val % 4 = 0 := by omega
  have h2 : t.val % 4 = 3 := hm
  have hc0 : ¬cond0_0 (grid0.coords t) := fun h => h0 ((hcond0_0 t).mp h)
  have hc1 : ¬cond0_1 (grid0.coords t) := fun h => h1 ((hcond0_1 t).mp h)
  have hc2 : cond0_2 (grid0.coords t) := (hcond0_2 t).mpr h2
  by_cases h3 : t.val % 32 = 31
  · have hc3 : cond0_3 (grid0.coords t) := (hcond0_3 t).mpr h3
    rw [outsAt0_E m c t h0 h1 h2 h3]
    dsimp only
    generalize (outsAt0 m c (t.val - 1) _).2.2.1 = p0
    generalize (outsAt0 m c (t.val - 1) _).2.2.2 = p1
    exact (rootRows_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3).trans
      (congrArg k0_pay3 (rowAcc_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3).symm)
  · have hc3 : ¬cond0_3 (grid0.coords t) := fun h => h3 ((hcond0_3 t).mp h)
    rw [outsAt0_C m c t h0 h1 h2 h3]
    dsimp only
    generalize (outsAt0 m c (t.val - 1) _).2.2.1 = p0
    generalize (outsAt0 m c (t.val - 1) _).2.2.2 = p1
    exact (rootRows_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3).trans
      (congrArg k0_pay3 (rowAcc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3).symm)

/-- At the last point of a batch the second result block is the root of the clamp of the second running minimum. -/
theorem cols_block (t : Fin cfg0.N) (hm : t.val % 32 = 31) :
    (outsAt0 m c t.val t.isLt).2.1 = k0_pay4 (outsAt0 m c t.val t.isLt).2.2.2 := by
  have hN : t.val < 128 := lt_of_lt_of_eq t.isLt N_0
  have h0 : ¬t.val % 32 = 0 := by omega
  have h1 : ¬t.val % 4 = 0 := by omega
  have h2 : t.val % 4 = 3 := by omega
  have h3 : t.val % 32 = 31 := hm
  have hc0 : ¬cond0_0 (grid0.coords t) := fun h => h0 ((hcond0_0 t).mp h)
  have hc1 : ¬cond0_1 (grid0.coords t) := fun h => h1 ((hcond0_1 t).mp h)
  have hc2 : cond0_2 (grid0.coords t) := (hcond0_2 t).mpr h2
  have hc3 : cond0_3 (grid0.coords t) := (hcond0_3 t).mpr h3
  rw [outsAt0_E m c t h0 h1 h2 h3]
  dsimp only
  generalize (outsAt0 m c (t.val - 1) _).2.2.1 = p0
  generalize (outsAt0 m c (t.val - 1) _).2.2.2 = p1
  exact rootCols_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) p0 p1 hc0 hc1 hc2 hc3

/-- What the first result block holds at the last point of a sweep: the distances to the nearest target point. -/
theorem rows_value (t : Fin cfg0.N) (hm : t.val % 4 = 3) (r : Fin 1024) (b : Fin 4) (row : Fin 8192)
    (hb : b.val = t.val / 32) (hrow : row.val = 1024 * (t.val / 4 % 8) + r.val) :
    (outsAt0 m c t.val t.isLt).1 (ix3 0 0 r) = toTargets (predCloud m c) (targCloud m c) b row :=
  rows_out t.val (lt_of_lt_of_eq t.isLt N_0) hm _ (inv_all m c t.val t.isLt).1 _ (rows_block m c t hm) r b row hb hrow

/-- What the second result block holds at the last point of a batch: the distances to the nearest predicted point. -/
theorem cols_value (t : Fin cfg0.N) (hm : t.val % 32 = 31) (j : Fin 8192) (b : Fin 4) (hb : b.val = t.val / 32) :
    (outsAt0 m c t.val t.isLt).2.1 (ix3 0 0 j) = toPredicted (predCloud m c) (targCloud m c) b j :=
  cols_out t.val (lt_of_lt_of_eq t.isLt N_0) hm _ (inv_all m c t.val t.isLt).2 _ (cols_block m c t hm) j b hb

end Cert.Chamfer.Points

end
-- ==== Proof.FinalArrays.lean ====
/-
  The two arrays the kernel leaves: every entry of the first is the distance from a predicted point to its nearest
  target point, every entry of the second the distance from a target point to its nearest predicted point.

  The first result array is written back block by block: at the last point of each sweep over the target blocks
  (`t % 4 = 3`) the block `t / 4 % 8` of 1024 entries of batch `t / 32`. The second is written back once per batch,
  at its last point (`t % 32 = 31`), the whole row of 8192 entries. The blocks written back cover both arrays, and
  what each holds there is the nearest distances.
-/
import proofs.«138287_j16003048145306_2_alg».proof.Proof.PointInvariant

noncomputable section

namespace Cert.Chamfer.Final

open Idealize.ShloMosaic Idealize.ShloMosaic.TcCoe Idealize.SL.Sem Idealize.ShloMosaic.ValueIdx
open Idealize.ShloMosaic.Pipeline (Dat)
open Cert.KernelIdeal Cert.KernelIdeal.Gen Cert.Chamfer Cert.Chamfer.Points Cert.Chamfer.Blocks

variable (m : (ℓ : Loc nD τ sig) → Buf (Elt Ideal) ℓ) (c : Dev nD)

/-- What a point that writes the first result array back writes: its block of the distances to the nearest target
    point. The block's entry `y` is the array's entry at batch `t / 32`, position `1024 · (t / 4 % 8) + y`. -/
theorem flushed_rows (t : Fin cfg0.N) (hf : (cfg0.win 2).flush t = true) :
    (dats m 0 c).flushed 2 t = ((cfg0.win 2).blk t).view.read (Elt Ideal)
      (fun y : S4x1x8192.Idx => toTargets (predCloud m c) (targCloud m c) (y 0) (y 2)) := by
  have hN : t.val < 128 := lt_of_lt_of_eq t.isLt N_0
  have hm : t.val % 4 = 3 := (flush0_2 t).mp hf
  obtain ⟨-, -, -, -, -, -, e0, e1, e2, -⟩ := idx_facts t
  show (cfg0.win 2).cut (grid0.coords t) ((dats m 0 c).after 2 t) = _
  rw [after0_2]
  funext y
  have h0 : (y 0).val < 1 := (y 0).isLt
  have h1 : (y 1).val < 1 := (y 1).isLt
  have h2 : (y 2).val < 1024 := (y 2).isLt
  show (outsAt0 m c t.val t.isLt).1 ((cfg0.win 2).xinj (grid0.coords t) y)
    = toTargets (predCloud m c) (targCloud m c) ((((cfg0.win 2).blk t).view.emb y) 0) ((((cfg0.win 2).blk t).view.emb y) 2)
  have ey : (cfg0.win 2).xinj (grid0.coords t) y = ix3 (0 : Fin 1) (0 : Fin 1) (⟨(y 2).val, h2⟩ : Fin 1024) := by
    funext a
    apply Fin.ext
    match a with
    | ⟨0, _⟩ => show (y 0).val = 0; omega
    | ⟨1, _⟩ => show (y 1).val = 0; omega
    | ⟨2, _⟩ => rfl
  refine (congrArg (outsAt0 m c t.val t.isLt).1 ey).trans ?_
  exact rows_value m c t hm ⟨(y 2).val, h2⟩ _ _
    (by show win0_2.index t (0 : Fin 3) * 1 + 1 * (y 0).val = t.val / 32; omega)
    (by show win0_2.index t (2 : Fin 3) * 1024 + 1 * (y 2).val = 1024 * (t.val / 4 % 8) + (y 2).val; omega)

/-- Every entry of the first result array lies in the block some point writes back: entry `(b, 0, p)` in the block of
    the last point of the sweep of batch `b` over the block `p / 1024` of predicted points. -/
theorem cover_rows (i : S4x1x8192.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  obtain ⟨t, ht⟩ : ∃ t : Fin cfg0.N, t.val = 32 * (i 0).val + 4 * ((i 2).val / 1024) + 3 :=
    ⟨⟨32 * (i 0).val + 4 * ((i 2).val / 1024) + 3, lt_of_lt_of_eq (by omega) N_0.symm⟩, rfl⟩
  obtain ⟨-, -, -, -, -, -, e0, e1, e2, -⟩ := idx_facts t
  refine ⟨t, (flush0_2 t).mpr (by omega), ?_⟩
  show i ∈ ((View.whole main_v0_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 1024 ≤ (i 2).val ∧ (i 2).val < win0_2.index t (2 : Fin 3) * 1024 + 1024
    omega

/-- After the run the first result array holds the distances to the nearest target point. -/
theorem final_rows : (dats m 0 c).arrAt 2 cfg0.N
    = fun y : S4x1x8192.Idx => toTargets (predCloud m c) (targCloud m c) (y 0) (y 2) :=
  (dats m 0 c).arrAt_eq_of_cover 2 _ (flushed_rows m c) cover_rows

/-- What a point that writes the second result array back writes: its block, a batch's whole row, of the distances
    to the nearest predicted point. -/
theorem flushed_cols (t : Fin cfg0.N) (hf : (cfg0.win 3).flush t = true) :
    (dats m 0 c).flushed 3 t = ((cfg0.win 3).blk t).view.read (Elt Ideal)
      (fun y : S4x1x8192.Idx => toPredicted (predCloud m c) (targCloud m c) (y 0) (y 2)) := by
  have hN : t.val < 128 := lt_of_lt_of_eq t.isLt N_0
  have hm : t.val % 32 = 31 := (flush0_3 t).mp hf
  obtain ⟨-, -, -, -, -, -, -, -, -, e0, e1, e2, -⟩ := idx_facts t
  show (cfg0.win 3).cut (grid0.coords t) ((dats m 0 c).after 3 t) = _
  rw [after0_3]
  funext y
  have h0 : (y 0).val < 1 := (y 0).isLt
  have h1 : (y 1).val < 1 := (y 1).isLt
  have h2 : (y 2).val < 8192 := (y 2).isLt
  show (outsAt0 m c t.val t.isLt).2.1 ((cfg0.win 3).xinj (grid0.coords t) y)
    = toPredicted (predCloud m c) (targCloud m c) ((((cfg0.win 3).blk t).view.emb y) 0) ((((cfg0.win 3).blk t).view.emb y) 2)
  have ey : (cfg0.win 3).xinj (grid0.coords t) y = ix3 (0 : Fin 1) (0 : Fin 1) (⟨(y 2).val, h2⟩ : Fin 8192) := by
    funext a
    apply Fin.ext
    match a with
    | ⟨0, _⟩ => show (y 0).val = 0; omega
    | ⟨1, _⟩ => show (y 1).val = 0; omega
    | ⟨2, _⟩ => rfl
  refine (congrArg (outsAt0 m c t.val t.isLt).2.1 ey).trans ?_
  have ej : (((cfg0.win 3).blk t).view.emb y) 2 = (⟨(y 2).val, h2⟩ : Fin 8192) :=
    Fin.ext (by show win0_3.index t (2 : Fin 3) * 8192 + 1 * (y 2).val = (y 2).val; omega)
  rw [ej]
  exact cols_value m c t hm ⟨(y 2).val, h2⟩ _
    (by show win0_3.index t (0 : Fin 3) * 1 + 1 * (y 0).val = t.val / 32; omega)

/-- Every entry of the second result array lies in the block some point writes back: entry `(b, 0, p)` in the row
    the last point of batch `b` writes. -/
theorem cover_cols (i : S4x1x8192.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  obtain ⟨t, ht⟩ : ∃ t : Fin cfg0.N, t.val = 32 * (i 0).val + 31 :=
    ⟨⟨32 * (i 0).val + 31, lt_of_lt_of_eq (by omega) N_0.symm⟩, rfl⟩
  obtain ⟨-, -, -, -, -, -, -, -, -, e0, e1, e2, -⟩ := idx_facts t
  refine ⟨t, (flush0_3 t).mpr (by omega), ?_⟩
  show i ∈ ((View.whole main_v0_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 8192 ≤ (i 2).val ∧ (i 2).val < win0_3.index t (2 : Fin 3) * 8192 + 8192
    omega

/-- After the run the second result array holds the distances to the nearest predicted point. -/
theorem final_cols : (dats m 0 c).arrAt 3 cfg0.N
    = fun y : S4x1x8192.Idx => toPredicted (predCloud m c) (targCloud m c) (y 0) (y 2) :=
  (dats m 0 c).arrAt_eq_of_cover 3 _ (flushed_cols m c) cover_cols

end Cert.Chamfer.Final

end
-- ==== Proof.KernelResult.lean ====
/-
  The kernel's whole run, read as a value.

  After the region the program recasts each result array from [4, 1, 8192] to [4, 8192] and takes the mean over the
  batch of the half-sum of the two arrays' means along their points. The recast of the first array is the array of
  distances to the nearest target point, that of the second the array of distances to the nearest predicted point;
  so the program's result is the mean of means of those two arrays.
-/
import proofs.«138287_j16003048145306_2_alg».proof.Proof.FinalArrays
import Idealize.ShloMosaic.Lib.StableHlo.Run
import Idealize.ShloMosaic.Lib.Pipeline.Value

noncomputable section

namespace Cert.Chamfer.Result

open Idealize.ShloMosaic Idealize.ShloMosaic.TcCoe Idealize.SL.Sem Idealize.ShloMosaic.ValueIdx
open Idealize.ShloMosaic.Pipeline (Dat)
open Cert.KernelIdeal Cert.KernelIdeal.Gen Cert.Chamfer Cert.Chamfer.Points Cert.Chamfer.Final

variable (m : (ℓ : Loc nD τ sig) → Buf (Elt Ideal) ℓ) (ρ : Dev nD → PrngReg)

/-- The recast that drops the middle unit axis reads entry (b, i) at (b, 0, i): the same row-major position. -/
theorem squeeze_apply (x : S4x1x8192.Idx → EReal) (h : S4x1x8192.ShapeCasts S4x8192) (b : Fin 4) (i : Fin 8192) :
    shapeCast S4x8192 x h (ix2 b i) = x (ix3 b 0 i) :=
  shapeCast_apply x h (ix2 b i) (ix3 b 0 i) (by
    rw [Shape.rowMajor_val_three, Shape.rowMajor_val_two]
    show (b.val * 1 + 0) * 8192 + i.val = b.val * 8192 + i.val
    omega)

theorem tail_value (c : Dev nD) :
    Pipeline.afterTail₀ cfgs (dats m) 0 (V0 m) [hostOps1] c main_v13
      = meanOfMeans reducesTo_S4x8192_S4_d1 h_S_ bcast_S_S4 reducesTo_S4_S_d0
          (toTargetsArr (predCloud m c) (targCloud m c)) (toPredictedArr (predCloud m c) (targCloud m c)) := by
  unfold Pipeline.afterTail₀
  show StableHlo.after hostOps1 _ (Proc.devRef .tc main_v13) = _
  after_results
  show meanOfMeans reducesTo_S4x8192_S4_d1 h_S_ bcast_S_S4 reducesTo_S4_S_d0 _ _ = _
  refine congrArg₂ (meanOfMeans reducesTo_S4x8192_S4_d1 h_S_ bcast_S_S4 reducesTo_S4_S_d0) (funext fun y => ?_) (funext fun y => ?_)
  · obtain ⟨b, i, rfl⟩ : ∃ (b : Fin 4) (i : Fin 8192), y = ix2 b i := ⟨y 0, y 1, eq_ix2 y⟩
    show shapeCast S4x8192 (Pipeline.withArrays spec0 c (V0 m c) (fun w => (dats m 0 c).arrAt w cfg0.N)
      (Proc.devRef .tc main_v0_0)) shapeCasts_S4x1x8192_S4x8192 (ix2 b i) = toTargets (predCloud m c) (targCloud m c) b i
    refine (squeeze_apply _ _ b i).trans ?_
    exact congrFun ((Pipeline.withArrays_arr spec0 launch0.win.arr_inj c (V0 m c) (fun w => (dats m 0 c).arrAt w cfg0.N) 2).trans (final_rows m c)) (ix3 b 0 i)
  · obtain ⟨b, i, rfl⟩ : ∃ (b : Fin 4) (i : Fin 8192), y = ix2 b i := ⟨y 0, y 1, eq_ix2 y⟩
    show shapeCast S4x8192 (Pipeline.withArrays spec0 c (V0 m c) (fun w => (dats m 0 c).arrAt w cfg0.N)
      (Proc.devRef .tc main_v0_1)) shapeCasts_S4x1x8192_S4x8192 (ix2 b i) = toPredicted (predCloud m c) (targCloud m c) b i
    refine (squeeze_apply _ _ b i).trans ?_
    exact congrFun ((Pipeline.withArrays_arr spec0 launch0.win.arr_inj c (V0 m c) (fun w => (dats m 0 c).arrAt w cfg0.N) 3).trans (final_cols m c)) (ix3 b 0 i)

/-- The kernel's result, as a function of the two clouds it was launched on. -/
abbrev result (c : Dev nD) : Buf (Elt Ideal) ((c.tc : Thread nD τ).loc main_v13) :=
  meanOfMeans reducesTo_S4x8192_S4_d1 h_S_ bcast_S_S4 reducesTo_S4_S_d0
    (toTargetsArr (predCloud m c) (targCloud m c)) (toPredictedArr (predCloud m c) (targCloud m c))

/-- Every weakly fair execution of the idealized kernel's program ends with its result at the mean of means of the
    nearest distances, and with both clouds as they were. -/
theorem run : θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v13 (Pipeline.mem_restRefs_of main_v13 rfl (fun w => by fin_cases w <;> decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Chamfer.Result

end
-- ==== Proof.RefNearest.lean ====
/-
  The reference program's stages are the functions of the specification.

  At batch b, predicted point i and target point j the reference forms (|p|² + |q|²) − 2·(p·q), each of the three terms
  a sum over the three coordinates started from the word for zero, takes the maximum with zero and then the square
  root: that is the root of the clamp of the squared distance. Its two minimum-reduces start from the word for +∞ and
  run along the targets and along the predicted points; a minimum is commutative and associative, so each is the
  minimum from +∞ of a finite family, and the root of the clamp commutes with such a minimum: they are the distances
  to the nearest target and to the nearest predicted point. The remaining stages are the sums and quotients of the
  mean of means, operation for operation.
-/
import proofs.«138287_j16003048145306_2_alg».proof.Proof.Gen.ReferenceIdeal.Read
import proofs.«138287_j16003048145306_2_alg».proof.Proof.Distances
import Idealize.ShloMosaic.Lib.ValueIdx
import Idealize.ShloMosaic.PureOps.Ideal.Laws
import Idealize.ShloMosaic.PureOps.Reduce

noncomputable section

namespace Cert.Chamfer.Ref

open Cert.ReferenceIdeal Cert.ReferenceIdeal.Gen Cert.ReferenceIdeal.Read Idealize.ShloMosaic Idealize.ShloMosaic.ValueIdx Cert.Chamfer

/-- The index of the first cloud's point read by the sum of squares at (b, i, j): point i, coordinate k. -/
theorem idx_left_sq (b : Fin 4) (i j : Fin 8192) (k : Fin 3) :
    idx_main_v1 (idx_main_v5 (idx_main_v7 (ix3 b i j))) k = ix3 b i k :=
  funext fun a => Fin.ext (by match a with | ⟨0, _⟩ => rfl | ⟨1, _⟩ => rfl | ⟨2, _⟩ => rfl)

/-- The index of the second cloud's point read by the sum of squares at (b, i, j): point j, coordinate k. -/
theorem idx_right_sq (b : Fin 4) (i j : Fin 8192) (k : Fin 3) :
    idx_main_v3 (idx_main_v6 (idx_main_v8 (ix3 b i j))) k = ix3 b j k :=
  funext fun a => Fin.ext (by match a with | ⟨0, _⟩ => rfl | ⟨1, _⟩ => rfl | ⟨2, _⟩ => rfl)

/-- The left factor of the inner product at (b, i, j): point i of the first cloud. -/
theorem idx_left_dot (b : Fin 4) (i j : Fin 8192) (k : Fin 3) :
    lidx_main_v4 (ix3 b i j) k = ix3 b i k :=
  funext fun a => Fin.ext (by match a with | ⟨0, _⟩ => rfl | ⟨1, _⟩ => rfl | ⟨2, _⟩ => rfl)

/-- The right factor of the inner product at (b, i, j): point j of the second cloud. -/
theorem idx_right_dot (b : Fin 4) (i j : Fin 8192) (k : Fin 3) :
    ridx_main_v4 (ix3 b i j) k = ix3 b j k :=
  funext fun a => Fin.ext (by match a with | ⟨0, _⟩ => rfl | ⟨1, _⟩ => rfl | ⟨2, _⟩ => rfl)

/-- The array of distances at (b, i, j) is the root of the clamp of the squared distance between predicted point i
    and target point j of batch b. -/
theorem dist_stage (x0 x1 : (⟨S4x8192x3, .f32⟩ : BufTy).Contents (Elt Ideal)) (b : Fin 4) (i j : Fin 8192) :
    val_main_v15 (F := Ideal) x0 x1 (ix3 b i j) = clampRoot (sqDist x0 x1 b i j) := by
  rw [val_main_v15_apply, val_main_v14_apply, val_main_v13_apply, val_main_cst_2_apply, val_main_v12_apply,
    val_main_v11_apply, val_main_v10_apply, val_main_cst_1_apply, val_main_v9_apply, val_main_v8_apply,
    val_main_v7_apply, val_main_v6_apply, val_main_v5_apply, val_main_v4_apply, val_main_v3_apply,
    val_main_v1_apply, val_main_cst_0_apply, val_main_cst_apply]
  simp only [val_main_v2_apply, val_main_v0_apply, idx_left_sq, idx_right_sq, idx_left_dot, idx_right_dot,
    Ideal.hostUnary_sqrt_def, Ideal.maximumf_def, Ideal.subf_def, Ideal.addf_def, Ideal.mulf_def, Ideal.ofBits_def,
    Ideal.ofBits_zero_f32, zero_add]
  rfl

/-- The word 0x7F800000 is +∞. -/
theorem ofBits_inf_f32 : Ideal.ofBits .f32 0x7F800000#32 = (⊤ : EReal) := by
  simp [Ideal.ofBits, Ideal.ieee]

/-- The result index (b, i) with target point j put back on the last axis is (b, i, j). -/
theorem lift_last (h : S4x8192x8192.Reduces [2] S4x8192) (b : Fin 4) (i : Fin 8192)
    (j : Fin (S4x8192x8192.size 2)) : h.lift (ix2 b i) j = ix3 b i (⟨j.val, j.isLt⟩ : Fin 8192) := by
  funext c; apply Fin.ext
  fin_cases c <;> rfl

/-- The result index (b, j) with predicted point i put back on the middle axis is (b, i, j). -/
theorem lift_middle (h : S4x8192x8192.Reduces [1] S4x8192) (b : Fin 4) (j : Fin 8192)
    (i : Fin (S4x8192x8192.size 1)) : h.lift (ix2 b j) i = ix3 b (⟨i.val, i.isLt⟩ : Fin 8192) j := by
  funext c; apply Fin.ext
  fin_cases c <;> rfl

/-- A minimum-reduce along the last axis, at (b, i), is the minimum over j of the entries (b, i, j), taken from the
    initial value. -/
theorem reduce_last (D : FVec Ideal S4x8192x8192 .f32) (init : FVec Ideal S_ .f32)
    (h : S4x8192x8192.Reduces [2] S4x8192) (b : Fin 4) (i : Fin 8192) :
    Host.reduce FloatOps.minimumf D init reducesTo_S4x8192x8192_S4x8192_d2 h_S_ (ix2 b i)
      = (Finset.univ : Finset (Fin 8192)).fold min (init (Shape.Idx.first h_S_)) fun j => D (ix3 b i j) := by
  rw [Host.reduce_eq_fold_single FloatOps.minimumf D init reducesTo_S4x8192x8192_S4x8192_d2 h h_S_]
  have hf : (D ∘ h.lift (ix2 b i)) = fun j : Fin 8192 => D (ix3 b i j) :=
    funext fun j => congrArg D (lift_last h b i j)
  exact congrArg (fun f => Finset.fold min (init (Shape.Idx.first h_S_)) f (Finset.univ : Finset (Fin 8192))) hf

/-- A minimum-reduce along the middle axis, at (b, j), is the minimum over i of the entries (b, i, j), taken from the
    initial value. -/
theorem reduce_middle (D : FVec Ideal S4x8192x8192 .f32) (init : FVec Ideal S_ .f32)
    (h : S4x8192x8192.Reduces [1] S4x8192) (b : Fin 4) (j : Fin 8192) :
    Host.reduce FloatOps.minimumf D init reducesTo_S4x8192x8192_S4x8192_d1 h_S_ (ix2 b j)
      = (Finset.univ : Finset (Fin 8192)).fold min (init (Shape.Idx.first h_S_)) fun i => D (ix3 b i j) := by
  rw [Host.reduce_eq_fold_single FloatOps.minimumf D init reducesTo_S4x8192x8192_S4x8192_d1 h h_S_]
  have hf : (D ∘ h.lift (ix2 b j)) = fun i : Fin 8192 => D (ix3 b i j) :=
    funext fun i => congrArg D (lift_middle h b j i)
  exact congrArg (fun f => Finset.fold min (init (Shape.Idx.first h_S_)) f (Finset.univ : Finset (Fin 8192))) hf

/-- The minimum of the distances along the targets is the distance to the nearest target. -/
theorem toTargets_stage (x0 x1 : (⟨S4x8192x3, .f32⟩ : BufTy).Contents (Elt Ideal)) :
    val_main_v16 (F := Ideal) x0 x1 = toTargetsArr x0 x1 := by
  funext y
  obtain ⟨b, i, rfl⟩ : ∃ (b : Fin 4) (i : Fin 8192), y = ix2 b i := ⟨y 0, y 1, eq_ix2 y⟩
  show val_main_v16 (F := Ideal) x0 x1 (ix2 b i) = toTargets x0 x1 b i
  unfold val_main_v16
  rw [toTargets_eq, reduce_last _ _ (by decide) b i, val_main_cst_3_apply, Ideal.ofBits_def, ofBits_inf_f32]
  simp only [dist_stage]

/-- The minimum of the distances along the predicted points is the distance to the nearest predicted point. -/
theorem toPredicted_stage (x0 x1 : (⟨S4x8192x3, .f32⟩ : BufTy).Contents (Elt Ideal)) :
    val_main_v17 (F := Ideal) x0 x1 = toPredictedArr x0 x1 := by
  funext y
  obtain ⟨b, j, rfl⟩ : ∃ (b : Fin 4) (j : Fin 8192), y = ix2 b j := ⟨y 0, y 1, eq_ix2 y⟩
  show val_main_v17 (F := Ideal) x0 x1 (ix2 b j) = toPredicted x0 x1 b j
  unfold val_main_v17
  rw [toPredicted_eq, reduce_middle _ _ (by decide) b j, val_main_cst_4_apply, Ideal.ofBits_def, ofBits_inf_f32]
  simp only [dist_stage]

/-- The result is the mean over the batch of the half-sum of the two mean nearest distances. -/
theorem result_stage (x0 x1 : (⟨S4x8192x3, .f32⟩ : BufTy).Contents (Elt Ideal)) :
    val_main_v28 (F := Ideal) x0 x1
      = meanOfMeans reducesTo_S4x8192_S4_d1 h_S_ bcast_S_S4 reducesTo_S4_S_d0 (toTargetsArr x0 x1) (toPredictedArr x0 x1) := by
  unfold val_main_v28 val_main_v27 val_main_v26 val_main_v25 val_main_v24 val_main_v23 val_main_v22 val_main_v21
    val_main_v20 val_main_v19 val_main_v18 val_main_cst_11 val_main_cst_10 val_main_cst_9 val_main_cst_8
    val_main_cst_7 val_main_cst_6 val_main_cst_5 meanOfMeans
  rw [toTargets_stage, toPredicted_stage]

end Cert.Chamfer.Ref

end
-- ==== Proof.lean ====
/-
  A kernel that takes the Chamfer distance between two clouds of points, against its reference.

  Both programs take, for every batch, every predicted point `i` and every target point `j`, the squared distance
  (|p|² + |q|²) − 2 p·q, the three terms sums over the three coordinates. The reference clamps every squared distance at
  zero, takes its root, and then takes the least root along the targets (for each predicted point) and along the
  predicted points (for each target). The kernel sweeps the pairs tile by tile, keeps the running minimum of the
  SQUARED distances — one per predicted point of the current block, one per target point of the batch —, and takes the
  root of the clamp only once a minimum is complete. The two agree because x ↦ √(max x 0) is monotone on the extended
  reals and fixes +∞: it commutes with the minimum of any finite family taken from +∞. No finiteness of the inputs is
  used: minima, and the order in which a finite family is swept, mean the same at the infinities. Both programs then
  take the same mean of means of the two arrays of nearest distances.

  The modules: that law (ClampRoot); the specification (Distances); the reference's stages as the
  specification (RefNearest); the kernel body's arithmetic at an index (TileValues, over two general lemma files on a
  row sum kept as a column and on a matrix product); what one run of the body leaves in its buffers (Pieces); where the
  windows sit (Blocks); the running minima by their universal property (RunningMin, AccInvariant) and along the grid
  (PointInvariant); the two result arrays (FinalArrays); and the kernel's whole run as a value (KernelResult). The three
  frames and the runs they are read from are the generated modules imported below; the idealization rewrote nothing.
-/
import proofs.«138287_j16003048145306_2_alg».proof.Defs
import proofs.«138287_j16003048145306_2_alg».proof.Proof.Gen.Kernel
import proofs.«138287_j16003048145306_2_alg».proof.Proof.Gen.Kernel.Skeleton
import proofs.«138287_j16003048145306_2_alg».proof.Proof.Gen.Kernel.Launch
import proofs.«138287_j16003048145306_2_alg».proof.Proof.Gen.Kernel.Points
import proofs.«138287_j16003048145306_2_alg».proof.Proof.Gen.Kernel.Frame
import proofs.«138287_j16003048145306_2_alg».proof.Proof.Gen.KernelIdeal
import proofs.«138287_j16003048145306_2_alg».proof.Proof.Gen.KernelIdeal.Skeleton
import proofs.«138287_j16003048145306_2_alg».proof.Proof.Gen.KernelIdeal.Launch
import proofs.«138287_j16003048145306_2_alg».proof.Proof.Gen.KernelIdeal.Points
import proofs.«138287_j16003048145306_2_alg».proof.Proof.Gen.KernelIdeal.Frame
import proofs.«138287_j16003048145306_2_alg».proof.Proof.Gen.ReferenceIdeal
import proofs.«138287_j16003048145306_2_alg».proof.Proof.Gen.ReferenceIdeal.Run
import proofs.«138287_j16003048145306_2_alg».proof.Proof.Gen.ReferenceIdeal.Read
import proofs.«138287_j16003048145306_2_alg».proof.Proof.Gen.Pre_finite_inputs
import proofs.«138287_j16003048145306_2_alg».proof.Proof.KernelResult
import proofs.«138287_j16003048145306_2_alg».proof.Proof.RefNearest
import Idealize.ShloMosaic.Adequacy
import Idealize.ShloMosaic.Init

noncomputable section

namespace Cert.Proof

open Idealize.ShloMosaic Idealize.SL.Sem

/-- The kernel as printed runs to the end without a fault and leaves both clouds unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the idealized kernel and the reference, launched on the same two clouds, both end with the
    mean of means of the two arrays of nearest distances: the kernel by its running minima of squared distances, the
    reference by its minima of the roots of the clamps, which are the same nearest distances. -/
theorem algebraic : Cert.algebraic_KernelIdeal_ReferenceIdeal := by
  intro m ρ m' ρ' _ hagree
  refine ⟨fun c => Cert.Chamfer.Result.result m c, Cert.Chamfer.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq _ _).trans ((Cert.Chamfer.Ref.result_stage _ _).trans ?_)
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
